-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1x1024 : Shape := ⟨2, ![1, 1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S65536x256 .f32) (main_arg1 : FVec F S1024x256 .f32) (main_arg2 : FVec F S1x1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S65536x256 : Shape := ⟨2, ![65536, 256]⟩
abbrev S1024x256 : Shape := ⟨2, ![1024, 256]⟩
abbrev S1x1024 : Shape := ⟨2, ![1, 1024]⟩
abbrev S_ : Shape := ⟨0, ![]⟩
abbrev S1024 : Shape := ⟨1, ![1024]⟩
abbrev S512x256 : Shape := ⟨2, ![512, 256]⟩
abbrev S1x512 : Shape := ⟨2, ![1, 512]⟩
abbrev S1024x1 : Shape := ⟨2, ![1024, 1]⟩
abbrev S256x512 : Shape := ⟨2, ![256, 512]⟩
abbrev S1024x512 : Shape := ⟨2, ![1024, 512]⟩
abbrev S512 : Shape := ⟨1, ![512]⟩
abbrev S65536x1024 : Shape := ⟨2, ![65536, 1024]⟩
abbrev S1024x1024 : Shape := ⟨2, ![1024, 1024]⟩
abbrev S256x1024 : Shape := ⟨2, ![256, 1024]⟩

abbrev nBuf : Space → Nat
  | .hbm => 13
  | .vmem => 17
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1x1024, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S1024x256, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S1024x256, .f32⟩
  | .local _ .vmem, ⟨1, _⟩ => ⟨S1024x256, .f32⟩
  | .local _ .vmem, ⟨2, _⟩ => ⟨S512x256, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x256, .f32⟩
  | .local _ .vmem, ⟨10, _⟩ => ⟨S1024x256, .f32⟩
  | .local _ .vmem, ⟨11, _⟩ => ⟨S1024x256, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  reducesTo_S1024x256_S1024_d1 : S1024x256.ReducesTo [1] S1024
  h_S_ : 0 < S_.numel
  bcast_S1024_S1x1024_1 : S1024.BroadcastsInDim S1x1024 (![1] : Fin 1 → Fin S1x1024.rank)
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  broadcasts_S1024x1_S1024x512 : S1024x1.Broadcasts S1024x512
  shapeCasts_S1x512_S1x512 : S1x512.ShapeCasts S1x512
  broadcasts_S1x512_S1024x512 : S1x512.Broadcasts S1024x512
  reduces_S1024x512_S512 : S1024x512.Reduces [0] S512
  shapeCasts_S512_S1x512 : S512.ShapeCasts S1x512
  shapeCasts_S1024x256_S1024x256 : S1024x256.ShapeCasts S1024x256
  transposes_S1024x256_p1_0_S256x1024 : S1024x256.Transposes [1, 0] S256x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x512_S1024x512_1_0_0_1_n_n_wf : DotDims.WF S1024x256 S256x512 S1024x512 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S1024x256.size a
  hwx0_1 : ∀ i : grid0.Coords, EltTy.bits .bf16 = 32 ∨ (Rect.block (s := S1024x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .f32 = 32 ∨ (Rect.block (s := S65536x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S65536x1024.size a
  hwx1_5 : ∀ i : grid1.Coords, EltTy.bits .f32 = 32 ∨ (Rect.block (s := S65536x1024) S1024x1024.size (cc1_transform_5 i) (hinb1_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S256x1024 : Shape := ⟨2, ![256, 1024]⟩
abbrev S65536x1024 : Shape := ⟨2, ![65536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1x1024, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S256x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S65536x1024, .f32⟩
  | .hbm, ⟨40, _⟩ => ⟨S65536x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  transposes_S1024x256_S256x1024_1_0 : S1024x256.Transposes [1, 0] S256x1024
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S1024_d0 : S65536x1024.ReducesTo [0] S1024
  bcast_S_S1024 : S_.BroadcastsInDim S1024 (![] : Fin 0 → Fin S1024.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.Spec.lean ====
/-
  The mathematics both programs compute, stated once over the argument arrays and importing no program.

  For a point x_r (row r of the 65536 × 256 array), a codebook vector s_c (row c of the 1024 × 256 array) and a weight w_c,
  the negated weighted distance is
      nd r c = −( √max(‖x_r‖² − 2·⟨x_r, s_c⟩ + ‖s_c‖², 0) · w_c ),
  the squared distance being taken through its expansion. The result is the softmax of nd DOWN EACH COLUMN c (over all
  65536 rows): with cmax c the column's maximum and csum c = Σ_r exp(nd r c − cmax c),
      G (r, c) = exp(nd r c − cmax c) / csum c.

  One of the two programs does not form cmax and csum directly: it walks the rows in 64 tiles of 1024, keeping a running
  maximum and a running sum that it rescales whenever the maximum grows (`step`, `online`), and then evaluates
  exp(nd r c − (M + log S)) with the final pair (M, S).
-/
import Idealize.ShloMosaic.PureOps.Ideal
import Idealize.ShloMosaic.Lib.ValueIdx

noncomputable section

namespace Cert.ColSoftmax

open Idealize.ShloMosaic Idealize.ShloMosaic.ValueIdx

abbrev SX : Shape := ⟨2, ![65536, 256]⟩
abbrev SS : Shape := ⟨2, ![1024, 256]⟩
abbrev SW : Shape := ⟨2, ![1, 1024]⟩
abbrev SO : Shape := ⟨2, ![65536, 1024]⟩

/-- −(‖x_r − s_c‖ · w_c), the squared distance through ‖x‖² − 2⟨x, s⟩ + ‖s‖² clamped at zero. -/
def nd (x : SX.Idx → EReal) (s : SS.Idx → EReal) (w : SW.Idx → EReal) (r : Fin 65536) (c : Fin 1024) : EReal :=
  -(Ideal.sqrt (max ((∑ k : Fin 256, x (ix2 r k) * x (ix2 r k))
        - Ideal.ofBits .f32 0x40000000#32 * (∑ k : Fin 256, x (ix2 r k) * s (ix2 c k))
        + (∑ k : Fin 256, s (ix2 c k) * s (ix2 c k))) 0) * w (ix2 (0 : Fin 1) c))

/-- A column's maximum: the fold of `max` from −∞ over all rows. -/
def colMax (a : Fin 65536 → EReal) : EReal := (Finset.univ : Finset (Fin 65536)).fold max ⊥ a

/-- A column's sum of exponentials below its maximum. -/
def colSum (a : Fin 65536 → EReal) : EReal := ∑ r : Fin 65536, Ideal.exp (a r - colMax a)

/-- The softmax of a column at row `r`. -/
def colSoftmax (a : Fin 65536 → EReal) (r : Fin 65536) : EReal :=
  Ideal.div (Ideal.exp (a r - colMax a)) (colSum a)

/-- The result at (r, c): the softmax down column c of the negated weighted distances. -/
def Gat (x : SX.Idx → EReal) (s : SS.Idx → EReal) (w : SW.Idx → EReal) (r : Fin 65536) (c : Fin 1024) : EReal :=
  colSoftmax (fun r' => nd x s w r' c) r

/-- The result array. -/
def G (x : SX.Idx → EReal) (s : SS.Idx → EReal) (w : SW.Idx → EReal) : SO.Idx → EReal :=
  fun i => Gat x s w ⟨(i 0).val, (i 0).isLt⟩ ⟨(i 1).val, (i 1).isLt⟩

theorem G_ix2 (x : SX.Idx → EReal) (s : SS.Idx → EReal) (w : SW.Idx → EReal) (r : Fin 65536) (c : Fin 1024) :
    G x s w (ix2 r c) = Gat x s w r c := rfl

/-! ## The streaming form -/

/-- One tile's update of the pair (running maximum, running sum): the maximum grows to include the tile's, the old sum is
    rescaled by exp(old maximum − new maximum), and the tile's exponentials below the new maximum are added. -/
def step (ms : EReal × EReal) (tile : Fin 1024 → EReal) : EReal × EReal :=
  (max ms.1 ((Finset.univ : Finset (Fin 1024)).fold max ⊥ tile),
   ms.2 * Ideal.exp (ms.1 - max ms.1 ((Finset.univ : Finset (Fin 1024)).fold max ⊥ tile))
     + ∑ p : Fin 1024, Ideal.exp (tile p - max ms.1 ((Finset.univ : Finset (Fin 1024)).fold max ⊥ tile)))

/-- Row `p` of tile `i`. -/
def rowOf (i : Fin 64) (p : Fin 1024) : Fin 65536 := ⟨i.val * 1024 + p.val, by have := i.isLt; have := p.isLt; omega⟩

/-- The pair after tiles 0 … n, started from (−∞, 0). -/
def online (a : Fin 65536 → EReal) : (n : ℕ) → n < 64 → EReal × EReal
  | 0, h => step (⊥, 0) (fun p => a (rowOf ⟨0, h⟩ p))
  | n + 1, h => step (online a n (Nat.lt_of_succ_lt h)) (fun p => a (rowOf ⟨n + 1, h⟩ p))

/-- What the streaming program evaluates at row `r` from the final pair. -/
def streamed (a : Fin 65536 → EReal) (r : Fin 65536) : EReal :=
  Ideal.exp (a r - ((online a 63 (by decide)).1 + Ideal.log (online a 63 (by decide)).2))

end Cert.ColSoftmax

end
-- ==== Proof.RefValue.lean ====
/-
  The reference program computes the column softmax of the negated weighted distances.

  Read one operation at a time: the squared norms ‖x_r‖² and ‖s_c‖² are sums of squares over the 256 coordinates, the
  product X·Sᵀ is the sum over the same coordinates, the squared distance is assembled as ‖x‖² − 2⟨x, s⟩ + ‖s‖², clamped at
  zero, rooted, scaled by the weight and negated: this is nd r c. The maximum over axis 0 from −∞ is the fold of max over
  the 65536 rows, the sum over axis 0 from 0 is the sum of the exponentials below that maximum, and the quotient is the
  softmax down the column.
-/
import proofs.«179421_j68307159876092_2_alg».proof.Proof.Gen.ReferenceIdeal.Read
import proofs.«179421_j68307159876092_2_alg».proof.Proof.Spec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.ColSoftmax

/-! ## The composed index maps, at an index given by its coordinates -/

/-- Row r's k-th coordinate, reached through the two broadcasts of ‖x_r‖². -/
theorem e_x2 (r : Fin 65536) (c : Fin 1024) (k : Fin 256) :
    idx_main_v1 (idx_main_v2 (idx_main_v9 (ix2 r c))) k = ix2 r k :=
  funext fun a => Fin.ext (by match a with | ⟨0, _⟩ => rfl | ⟨1, _⟩ => rfl)

/-- Codebook vector c's k-th coordinate, reached through the two broadcasts of ‖s_c‖². -/
theorem e_s2 (r : Fin 65536) (c : Fin 1024) (k : Fin 256) :
    idx_main_v4 (idx_main_v11 (idx_main_v12 (ix2 r c))) k = ix2 c k :=
  funext fun a => Fin.ext (by match a with | ⟨0, _⟩ => rfl | ⟨1, _⟩ => rfl)

/-- The product's left operand at (r, k). -/
theorem e_dl (r : Fin 65536) (c : Fin 1024) (k : Fin 256) :
    lidx_main_v6 (ix2 r c) k = ix2 r k :=
  funext fun a => Fin.ext (by match a with | ⟨0, _⟩ => rfl | ⟨1, _⟩ => rfl)

/-- The product's right operand is the transpose, read at (c, k). -/
theorem e_dr (r : Fin 65536) (c : Fin 1024) (k : Fin 256) :
    idx_main_v5 (ridx_main_v6 (ix2 r c) k) = ix2 c k :=
  funext fun a => Fin.ext (by match a with | ⟨0, _⟩ => rfl | ⟨1, _⟩ => rfl)

/-- The weight of column c. -/
theorem e_w (r : Fin 65536) (c : Fin 1024) :
    idx_main_v17 (ix2 r c) = ix2 (0 : Fin 1) c :=
  funext fun a => Fin.ext (by match a with | ⟨0, _⟩ => rfl | ⟨1, _⟩ => rfl)

/-- The bit pattern of −∞ is the bottom element. -/
theorem ofBits_neg_inf : Ideal.ofBits .f32 0xFF800000#32 = (⊥ : EReal) := by
  simp [Ideal.ofBits, Ideal.ieee]

/-! ## The negated weighted distance -/

theorem v19_at (x0 : SX.Idx → EReal) (x1 : SS.Idx → EReal) (x2 : SW.Idx → EReal) (r : Fin 65536) (c : Fin 1024) :
    val_main_v19 (F := Ideal) x0 x1 x2 (ix2 r c) = nd x0 x1 x2 r c := by
  rw [val_main_v19_apply, val_main_v18_apply, val_main_v16_apply, val_main_v15_apply, val_main_v13_apply,
    val_main_v10_apply, val_main_v9_apply, val_main_v2_apply, val_main_v1_apply, val_main_v8_apply, val_main_v7_apply,
    val_main_v6_apply, val_main_v12_apply, val_main_v11_apply, val_main_v4_apply, val_main_v14_apply,
    val_main_v17_apply, val_main_cst_apply, val_main_cst_0_apply, val_main_cst_1_apply, val_main_cst_2_apply]
  simp only [val_main_v0_apply, val_main_v3_apply, val_main_v5_apply, e_x2, e_s2, e_dl, e_dr, e_w,
    Ideal.ofBits_def, Ideal.addf_def, Ideal.subf_def, Ideal.mulf_def, Ideal.maximumf_def, Ideal.hostUnary_sqrt_def,
    Ideal.hostNegf_def, Ideal.negf_def, Ideal.ofBits_zero_f32, zero_add]
  rfl

/-! ## The column maximum -/

/-- The reduced index c with row k put back is (k, c). -/
theorem lift_at (h : S65536x1024.Reduces [0] S1024) (c : Fin 1024) (k : Fin (S65536x1024.size 0)) :
    h.lift (ix1 c) k = ix2 (⟨k.val, k.isLt⟩ : Fin 65536) c := by
  funext a; apply Fin.ext
  match a with
  | ⟨0, _⟩ => rfl
  | ⟨1, _⟩ => rfl

theorem reduces_d0 : S65536x1024.Reduces [0] S1024 := by decide

/-- The maximum over axis 0 from −∞, at column c, is the column's maximum. -/
theorem v20_at (x0 : SX.Idx → EReal) (x1 : SS.Idx → EReal) (x2 : SW.Idx → EReal) (c : Fin 1024) :
    val_main_v20 (F := Ideal) x0 x1 x2 (ix1 c) = colMax (fun r => nd x0 x1 x2 r c) := by
  unfold val_main_v20
  rw [Host.reduce_eq_fold_single FloatOps.maximumf _ _ Facts₀.reducesTo_S65536x1024_S1024_d0 reduces_d0 Facts₀.h_S_]
  have hf : (val_main_v19 (F := Ideal) x0 x1 x2 ∘ reduces_d0.lift (ix1 c)) = fun k : Fin 65536 => nd x0 x1 x2 k c :=
    funext fun k => (congrArg (val_main_v19 (F := Ideal) x0 x1 x2) (lift_at reduces_d0 c k)).trans (v19_at x0 x1 x2 _ c)
  rw [hf, val_main_cst_3_apply, Ideal.ofBits_def, ofBits_neg_inf]
  rfl

/-- The second maximum with −∞ changes nothing. -/
theorem v22_at (x0 : SX.Idx → EReal) (x1 : SS.Idx → EReal) (x2 : SW.Idx → EReal) (c : Fin 1024) :
    val_main_v22 (F := Ideal) x0 x1 x2 (ix1 c) = colMax (fun r => nd x0 x1 x2 r c) := by
  rw [val_main_v22_apply, val_main_v21_apply, val_main_cst_4_apply, v20_at, Ideal.ofBits_def, ofBits_neg_inf,
    Ideal.maximumf_def]
  exact max_bot_left _

/-! ## The exponentials, their column sum and the quotient -/

/-- The column maximum broadcast back to (r, c) is read at column c. -/
theorem e_max (r : Fin 65536) (c : Fin 1024) :
    idx_main_v23 (idx_main_v24 (ix2 r c)) = ix1 c :=
  funext fun a => Fin.ext (by match a with | ⟨0, _⟩ => rfl)

/-- The column sum broadcast back to (r, c) is read at column c. -/
theorem e_sum (r : Fin 65536) (c : Fin 1024) :
    idx_main_v28 (idx_main_v29 (ix2 r c)) = ix1 c :=
  funext fun a => Fin.ext (by match a with | ⟨0, _⟩ => rfl)

/-- Row k of column c in the sum over axis 0. -/
theorem e_row (c : Fin 1024) (k : Fin 65536) :
    idx_main_v27 (ix1 c) k = ix2 k c :=
  funext fun a => Fin.ext (by match a with | ⟨0, _⟩ => rfl | ⟨1, _⟩ => rfl)

/-- The exponential of the distance below its column's maximum. -/
theorem v26_at (x0 : SX.Idx → EReal) (x1 : SS.Idx → EReal) (x2 : SW.Idx → EReal) (r : Fin 65536) (c : Fin 1024) :
    val_main_v26 (F := Ideal) x0 x1 x2 (ix2 r c)
      = Ideal.exp (nd x0 x1 x2 r c - colMax (fun r' => nd x0 x1 x2 r' c)) := by
  rw [val_main_v26_apply, val_main_v25_apply, val_main_v24_apply, val_main_v23_apply, e_max, v22_at, v19_at,
    Ideal.hostUnary_exp_def, Ideal.subf_def]

/-- The sum over axis 0 from 0, at column c, is the column's sum of exponentials. -/
theorem v27_at (x0 : SX.Idx → EReal) (x1 : SS.Idx → EReal) (x2 : SW.Idx → EReal) (c : Fin 1024) :
    val_main_v27 (F := Ideal) x0 x1 x2 (ix1 c) = colSum (fun r => nd x0 x1 x2 r c) := by
  rw [val_main_v27_apply, val_main_cst_5_apply, Ideal.ofBits_def, Ideal.ofBits_zero_f32, zero_add]
  unfold colSum
  refine Finset.sum_congr rfl fun k _ => ?_
  rw [e_row, v26_at]

/-- The reference program's result is the column softmax of the negated weighted distances. -/
theorem ref_eq (x0 : SX.Idx → EReal) (x1 : SS.Idx → EReal) (x2 : SW.Idx → EReal) :
    val_main_v30 (F := Ideal) x0 x1 x2 = G x0 x1 x2 := by
  funext i
  obtain ⟨r, c, rfl⟩ : ∃ (r : Fin 65536) (c : Fin 1024), i = ix2 r c := ⟨i 0, i 1, eq_ix2 i⟩
  rw [G_ix2, val_main_v30_apply, val_main_v29_apply, val_main_v28_apply, e_sum, v27_at, v26_at, Ideal.hostDivf_def]
  rfl

end Cert.ReferenceIdeal.RefValue

end
-- ==== Proof.Pieces.lean ====
/-
  What one step of the statistics pass leaves in its two carried row vectors, as pure functions of the blocks it read.

  The pass keeps, per codebook column, a running maximum and a running sum. At the first row tile of a column block it
  first resets them (−∞ and 0) and reads the reset values back; at every later tile it reads what the tile before left.
  Either way the new maximum is max(old maximum, tile maximum) and the new sum is
  old sum · exp(old maximum − new maximum) + Σ_rows exp(value − new maximum).
-/
import proofs.«179421_j68307159876092_2_alg».proof.Proof.Gen.KernelIdeal.Frame
import Idealize.ShloMosaic.Lib.Pipeline.Value
import Idealize.ShloMosaic.Lib.Tactic

noncomputable section

namespace Cert.KernelIdeal.Stats

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The new running maximum from the blocks read and the old maximum. -/
abbrev newMax (x0 : Vec F S1024x256 .f32) (x1 : Vec F S512x256 .bf16) (x2 : Vec F S1x512 .f32) (x3 : Vec F S1x512 .f32)
    (mo : Vec F S1x512 .f32) : Vec F S1x512 .f32 := k0_pay5 x0 x1 x3 x2 mo

/-- The new running sum from the blocks read, the old maximum and the old sum. -/
abbrev newSum (x0 : Vec F S1024x256 .f32) (x1 : Vec F S512x256 .bf16) (x2 : Vec F S1x512 .f32) (x3 : Vec F S1x512 .f32)
    (mo so : Vec F S1x512 .f32) : Vec F S1x512 .f32 :=
  k0_pay1 (k0_pay4 x0 x1 x3 x2) (k0_pay5 x0 x1 x3 x2 mo) (k0_pay6 x0 x1 x3 x2 mo mo) so

/-- The values the reset stores: −∞ for the maximum and 0 for the sum, in every column. -/
abbrev resetMax : Vec F S1x512 .f32 := k0_pay2
abbrev resetSum : Vec F S1x512 .f32 := k0_pay3

/-- A later tile: the maximum buffer ends at the new maximum over the old one it held. -/
theorem out_B_4 (c : Dev nD) (i : grid0.Coords) (arg2 : Memref sig .tc .vmem S1024x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S1024x256 .f32) (x1 : Vec F S512x256 .bf16) (x2 : Vec F S1x512 .f32) (x3 : Vec F S1x512 .f32) (xo4 : Vec F S1x512 .f32) (xo5 : Vec F S1x512 .f32) :
    out0_B_4 c i arg2 harg2 arg3 harg3 arg4 harg4 arg5 harg5 arg6 harg6 arg7 harg7 hc0 x0 x1 x2 x3 xo4 xo5 = newMax x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1024x256) hz, View.ld_unit_zero (S := S512x256) hz, View.ld_unit_zero (S := S1x512) hz]

/-- A later tile: the sum buffer ends at the new sum over the old pair. -/
theorem out_B_5 (c : Dev nD) (i : grid0.Coords) (arg2 : Memref sig .tc .vmem S1024x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i)
    (x0 : Vec F S1024x256 .f32) (x1 : Vec F S512x256 .bf16) (x2 : Vec F S1x512 .f32) (x3 : Vec F S1x512 .f32) (xo4 : Vec F S1x512 .f32) (xo5 : Vec F S1x512 .f32) :
    out0_B_5 c i arg2 harg2 arg3 harg3 arg4 harg4 arg5 harg5 arg6 harg6 arg7 harg7 hc0 x0 x1 x2 x3 xo4 xo5 = newSum x0 x1 x2 x3 xo4 xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1024x256) hz, View.ld_unit_zero (S := S512x256) hz, View.ld_unit_zero (S := S1x512) hz]

/-- The first tile of a column block: the maximum buffer ends at the new maximum over the reset value. -/
theorem out_A_4 (c : Dev nD) (i : grid0.Coords) (arg2 : Memref sig .tc .vmem S1024x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S1024x256 .f32) (x1 : Vec F S512x256 .bf16) (x2 : Vec F S1x512 .f32) (x3 : Vec F S1x512 .f32) :
    out0_A_4 c i arg2 harg2 arg3 harg3 arg4 harg4 arg5 harg5 arg6 harg6 arg7 harg7 hc0 x0 x1 x2 x3 = newMax x0 x1 x2 x3 resetMax := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread,
    View.ld_unit_zero (S := S1024x256) hz, View.ld_unit_zero (S := S512x256) hz, View.ld_unit_zero (S := S1x512) hz]

/-- The first tile of a column block: the sum buffer ends at the new sum over the reset pair. -/
theorem out_A_5 (c : Dev nD) (i : grid0.Coords) (arg2 : Memref sig .tc .vmem S1024x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i)
    (x0 : Vec F S1024x256 .f32) (x1 : Vec F S512x256 .bf16) (x2 : Vec F S1x512 .f32) (x3 : Vec F S1x512 .f32) :
    out0_A_5 c i arg2 harg2 arg3 harg3 arg4 harg4 arg5 harg5 arg6 harg6 arg7 harg7 hc0 x0 x1 x2 x3 = newSum x0 x1 x2 x3 resetMax resetSum := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x512) hz]
  simp only [View.readCov_unit_zero (S := S1x512) _ hz]
  simp only [View.readAt_eq_ld, harg2.read_unread, harg3.read_unread, harg4.read_unread, harg5.read_unread, harg6.read_unread, harg7.read_unread,
    View.ld_unit_zero (S := S1024x256) hz, View.ld_unit_zero (S := S512x256) hz, View.ld_unit_zero (S := S1x512) hz]

end Cert.KernelIdeal.Stats

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.Tile0.lean ====
/-
  The statistics pass's arithmetic read at an index, at the exact (extended real) values.

  For one row tile (1024 rows) against one block of 512 codebook columns, the value at (p, q) is
      negT p q = 0 − √max(Σ_k x_pk² − 2·Σ_k x_pk s_qk + ‖s_q‖², 0) · w_q,
  the new maximum of column q is max(old maximum, max_p negT p q), and the new sum is
      old sum · exp(old maximum − new maximum) + Σ_p exp(negT p q − new maximum):
  exactly one `step` of the streaming softmax on the pair (old maximum, old sum).
-/
import proofs.«179421_j68307159876092_2_alg».proof.Proof.Gen.KernelIdeal.Skeleton
import proofs.«179421_j68307159876092_2_alg».proof.Proof.Spec
import proofs.«179421_j68307159876092_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile0

open Idealize.ShloMosaic Idealize.ShloMosaic.ValueIdx Cert.LibLayoutCols
open Cert.KernelIdeal Cert.KernelIdeal.Gen

theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl

/-- The tile's negated weighted distance at row `p` and column `q`, from the blocks: the row block of points `x0`, the block of
    codebook vectors `x1`, the weights `x2` and the squared codebook norms `x3`. -/
def negT (x0 : Vec Ideal S1024x256 .f32) (x1 : Vec Ideal S512x256 .bf16) (x2 x3 : Vec Ideal S1x512 .f32) (p : Fin 1024) (q : Fin 512) : EReal :=
  Ideal.ofBits .f32 0x00000000#32 - Ideal.sqrt (max ((∑ k : Fin 256, x0 (ix2 p k) * x0 (ix2 p k))
      - Ideal.ofBits .f32 0x40000000#32 * (∑ k : Fin 256, x0 (ix2 p k) * x1 (ix2 q k)) + x3 (ix2 (0 : Fin 1) q))
    (Ideal.ofBits .f32 0x00000000#32)) * x2 (ix2 (0 : Fin 1) q)

/-- A row's sum of squares kept as a column and spread over the tile's columns. -/
theorem rowSq_apply (x0 : Vec Ideal S1024x256 .f32) (hacc : (0x00000000#32 : BitVec 32) = 0x00000000#32) (p : Fin 1024) (q : Fin 512) :
    broadcastTo S1024x512 (shapeCast S1024x1 (multiReduction (F := Ideal) .add [1] S1024 (mulf x0 x0) 0x00000000#32 reduces_S1024x256_S1024 (.inl rfl) hacc)
      shapeCasts_S1024_S1024x1) broadcasts_S1024x1_S1024x512 (ix2 p q) = ∑ k : Fin 256, x0 (ix2 p k) * x0 (ix2 p k) := by
  refine (broadcastTo_a1_ab_apply _ _ p q).trans ((shapeCast_a_a1_apply _ _ p 0).trans ?_)
  refine (Ideal.multiReduction_add_single (mulf x0 x0) 0x00000000#32 reduces_S1024x256_S1024 (.inl rfl) hacc (ix1 p)).trans ?_
  refine Finset.sum_congr rfl fun k _ => ?_
  have e : reduces_S1024x256_S1024.lift (ix1 p) k = ix2 p (⟨k.val, k.isLt⟩ : Fin 256) :=
    funext fun a => Fin.ext (by match a with | ⟨0, _⟩ => rfl | ⟨1, _⟩ => rfl)
  rw [e]; rfl

theorem lhs_0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem rhs_0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem rhs_1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product of the row block with the transposed codebook block: an inner product per (row, column). -/
theorem dot_apply (x0 : Vec Ideal S1024x256 .f32) (x1 : Vec Ideal S512x256 .bf16) (p : Fin 1024) (q : Fin 512) :
    matmul (F := Ideal) dot_S1024x256_S256x512_S1024x512_1_0_0_1_n_n none (truncf .bf16 x0 bitsLt_bf16_f32)
      (transpose S256x512 [1, 0] (shapeCast S512x256 x1 shapeCasts_S512x256_S512x256 : FVec Ideal S512x256 .bf16) transposes_S512x256_p1_0_S256x512)
      (constant S1024x512 .f32 0x00000000#32) (ix2 p q) = ∑ k : Fin 256, x0 (ix2 p k) * x1 (ix2 q k) := by
  rw [shapeCast_self]
  refine (Ideal.matmul_constant_zero_apply dot_S1024x256_S256x512_S1024x512_1_0_0_1_n_n none _ _ (ix2 p q)).trans ?_
  rw [← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p q) ((ValueIdx.contrEquiv1 dot_S1024x256_S256x512_S1024x512_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x512_S1024x512_1_0_0_1_n_n.rhsIdx (ix2 p q) ((ValueIdx.contrEquiv1 dot_S1024x256_S256x512_S1024x512_1_0_0_1_n_n 256 rfl rfl).symm k) = ix2 k q := funext fun a => Fin.ext (by
    match a with
    | ⟨0, _⟩ => exact (rhs_0 _ _).trans hk
    | ⟨1, _⟩ => exact rhs_1 _ _)
  rw [el, er, transpose_ix2_apply]
  rfl

/-- The tile's value at an index. -/
theorem pay4_apply (x0 : Vec Ideal S1024x256 .f32) (x1 : Vec Ideal S512x256 .bf16) (x2 x3 : Vec Ideal S1x512 .f32) (p : Fin 1024) (q : Fin 512) :
    k0_pay4 (F := Ideal) x0 x1 x3 x2 (ix2 p q) = negT x0 x1 x2 x3 p q := by
  unfold k0_pay4 negT
  simp only [subf_apply, mulf_apply, addf_apply, maximumf_apply, broadcast_apply, sqrt_apply]
  rw [rowSq_apply x0 _ p q, dot_apply x0 x1 p q, broadcastTo_1b_ab_apply, broadcastTo_1b_ab_apply, shapeCast_self]
  rfl

theorem ninf_eq : Ideal.ofBits .f32 0xFF800000#32 = (⊥ : EReal) := by simp [Ideal.ofBits, Ideal.ieee]

/-- The reset maximum is −∞ in every column. -/
theorem pay2_apply (q : Fin 512) : k0_pay2 (F := Ideal) (ix2 (0 : Fin 1) q) = (⊥ : EReal) := ninf_eq

/-- The reset sum is 0 in every column. -/
theorem pay3_apply (q : Fin 512) : k0_pay3 (F := Ideal) (ix2 (0 : Fin 1) q) = (0 : EReal) := Ideal.ofBits_zero_f32

/-- Column `q` of the tile, read down its 1024 rows. -/
theorem lift_col (p : Fin (S1024x512.size 0)) (q : Fin 512) :
    reduces_S1024x512_S512.lift (ix1 q) p = ix2 (⟨p.val, p.isLt⟩ : Fin 1024) q :=
  funext fun a => Fin.ext (by match a with | ⟨0, _⟩ => rfl | ⟨1, _⟩ => rfl)

/-- The new maximum of column `q`: the old one against the tile's column maximum. -/
theorem pay5_apply (x0 : Vec Ideal S1024x256 .f32) (x1 : Vec Ideal S512x256 .bf16) (x2 x3 mo : Vec Ideal S1x512 .f32) (q : Fin 512) :
    k0_pay5 (F := Ideal) x0 x1 x3 x2 mo (ix2 (0 : Fin 1) q)
      = max (mo (ix2 (0 : Fin 1) q)) ((Finset.univ : Finset (Fin 1024)).fold max ⊥ (fun p => negT x0 x1 x2 x3 p q)) := by
  unfold k0_pay5
  simp only [maximumf_apply]
  rw [shapeCast_self, shapeCast_a_1a_apply]
  refine congrArg (max _) ?_
  refine (Ideal.multiReduction_maximumf_single (k0_pay4 (F := Ideal) x0 x1 x3 x2) 0xFF800000#32 reduces_S1024x512_S512 _ _ (ix1 q)).trans ?_
  rw [show FloatOps.ofBits (F := Ideal) .f32 0xFF800000#32 = (⊥ : EReal) from ninf_eq]
  refine Finset.fold_congr fun p _ => ?_
  show k0_pay4 (F := Ideal) x0 x1 x3 x2 (reduces_S1024x512_S512.lift (ix1 q) p) = _
  rw [lift_col]
  exact pay4_apply x0 x1 x2 x3 _ q

end Cert.KernelIdeal.Tile0

end
-- ==== Proof.Step0.lean ====
/-
  One grid point of the statistics pass is one `step` of the streaming softmax, column by column.

  With the tile's values negT p q (rows p, columns q), the old pair (mo q, so q) becomes
      ( max(mo q, max_p negT p q),  so q · exp(mo q − new maximum) + Σ_p exp(negT p q − new maximum) ).
-/
import proofs.«179421_j68307159876092_2_alg».proof.Proof.Tile0

noncomputable section

namespace Cert.KernelIdeal.Tile0

open Idealize.ShloMosaic Idealize.ShloMosaic.ValueIdx Cert.LibLayoutCols
open Cert.KernelIdeal Cert.KernelIdeal.Gen Cert.ColSoftmax

/-- The rescaling factor of the old sum in column `q`. -/
theorem pay6_apply (x0 : Vec Ideal S1024x256 .f32) (x1 : Vec Ideal S512x256 .bf16) (x2 x3 mo mo' : Vec Ideal S1x512 .f32) (q : Fin 512) :
    k0_pay6 (F := Ideal) x0 x1 x3 x2 mo mo' (ix2 (0 : Fin 1) q)
      = Ideal.exp (mo' (ix2 (0 : Fin 1) q) - k0_pay5 (F := Ideal) x0 x1 x3 x2 mo (ix2 (0 : Fin 1) q)) := by
  unfold k0_pay6
  simp only [exp_apply, subf_apply]
  rw [shapeCast_self]

/-- The new sum of column `q` from the tile `v27`, the new maximum `v32`, the rescaling factor `v36` and the old sum. -/
theorem pay1_apply (v27 : FVec Ideal S1024x512 .f32) (v32 v36 so : FVec Ideal S1x512 .f32) (q : Fin 512) :
    k0_pay1 (F := Ideal) v27 v32 v36 so (ix2 (0 : Fin 1) q)
      = so (ix2 (0 : Fin 1) q) * v36 (ix2 (0 : Fin 1) q)
        + ∑ p : Fin 1024, Ideal.exp (v27 (ix2 p q) - v32 (ix2 (0 : Fin 1) q)) := by
  unfold k0_pay1
  simp only [addf_apply, mulf_apply]
  rw [shapeCast_self, shapeCast_a_1a_apply]
  refine congrArg (fun z : EReal => so (ix2 (0 : Fin 1) q) * v36 (ix2 (0 : Fin 1) q) + z) ?_
  refine (Ideal.multiReduction_add_single _ 0x00000000#32 reduces_S1024x512_S512 _ _ (ix1 q)).trans ?_
  refine Finset.sum_congr rfl fun p _ => ?_
  rw [lift_col]
  simp only [exp_apply, subf_apply]
  rw [broadcastTo_1b_ab_apply]
  rfl

/-- One grid point is one `step` on each column's pair. -/
theorem step_eq (x0 : Vec Ideal S1024x256 .f32) (x1 : Vec Ideal S512x256 .bf16) (x2 x3 mo so : Vec Ideal S1x512 .f32) (q : Fin 512) :
    (k0_pay5 (F := Ideal) x0 x1 x3 x2 mo (ix2 (0 : Fin 1) q),
     k0_pay1 (F := Ideal) (k0_pay4 x0 x1 x3 x2) (k0_pay5 x0 x1 x3 x2 mo) (k0_pay6 x0 x1 x3 x2 mo mo) so (ix2 (0 : Fin 1) q))
      = step (mo (ix2 (0 : Fin 1) q), so (ix2 (0 : Fin 1) q)) (fun p => negT x0 x1 x2 x3 p q) := by
  unfold step
  rw [pay1_apply, pay6_apply, pay5_apply]
  refine Prod.ext rfl ?_
  dsimp only
  refine congrArg (fun z : EReal => _ + z) (Finset.sum_congr rfl fun p _ => ?_)
  rw [pay4_apply]

end Cert.KernelIdeal.Tile0

end
-- ==== Proof.NdK.lean ====
/-
  The negated weighted distance as the tiled program forms it: the squared codebook norms arrive as a separate row vector
  `n` (computed once, ahead of both passes) instead of being summed in place. When that vector holds 0 + Σ_k s_ck², the
  value is the specification's `nd`.
-/
import proofs.«179421_j68307159876092_2_alg».proof.Proof.Spec
import Idealize.ShloMosaic.PureOps.Ideal.Laws

noncomputable section

namespace Cert.ColSoftmax

open Idealize.ShloMosaic Idealize.ShloMosaic.ValueIdx

/-- 0 − √max(Σ_k x_rk² − 2·Σ_k x_rk s_ck + n_c, 0) · w_c, with the squared norm `n_c` given. -/
def ndK (x : SX.Idx → EReal) (s : SS.Idx → EReal) (w n : SW.Idx → EReal) (r : Fin 65536) (c : Fin 1024) : EReal :=
  Ideal.ofBits .f32 0x00000000#32 - Ideal.sqrt (max ((∑ k : Fin 256, x (ix2 r k) * x (ix2 r k))
      - Ideal.ofBits .f32 0x40000000#32 * (∑ k : Fin 256, x (ix2 r k) * s (ix2 c k)) + n (ix2 (0 : Fin 1) c))
    (Ideal.ofBits .f32 0x00000000#32)) * w (ix2 (0 : Fin 1) c)

/-- With the squared norms in place the tiled form is the specification's. -/
theorem ndK_eq_nd (x : SX.Idx → EReal) (s : SS.Idx → EReal) (w n : SW.Idx → EReal)
    (hn : ∀ c : Fin 1024, n (ix2 (0 : Fin 1) c) = Ideal.ofBits .f32 0x00000000#32 + ∑ k : Fin 256, s (ix2 c k) * s (ix2 c k))
    (r : Fin 65536) (c : Fin 1024) : ndK x s w n r c = nd x s w r c := by
  unfold ndK nd
  rw [hn c, Ideal.ofBits_zero_f32, zero_add, sub_eq_add_neg, zero_add]

end Cert.ColSoftmax

end
-- ==== Proof.Stats.lean ====
/-
  The statistics pass's two result rows, as functions of the arrays the pass finds.

  The grid has 2 × 64 points: for each half of the 1024 codebook columns the 64 row tiles of the 65536 points are walked in
  order, the pair (running maximum, running sum) of every column carried from tile to tile and written back after the 64th.
  Point t = 64·j + i reads rows 1024·i … 1024·i + 1023 and columns 512·j … 512·j + 511. By induction on the point the carried
  pair of column c after tile i is the streaming pair `online` of that column's negated distances after i + 1 tiles; so the
  two result rows end at the final pair (after all 64 tiles) of every column.
-/
import proofs.«179421_j68307159876092_2_alg».proof.Proof.Gen.KernelIdeal.Frame
import proofs.«179421_j68307159876092_2_alg».proof.Proof.Pieces
import proofs.«179421_j68307159876092_2_alg».proof.Proof.Step0
import proofs.«179421_j68307159876092_2_alg».proof.Proof.NdK
import Idealize.ShloMosaic.Lib.Pipeline.Value

noncomputable section

namespace Cert.KernelIdeal.Stats

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile0 Cert.ColSoftmax

variable (V : (c : Dev nD) → (b : Ref sig .tc) → Buf (Elt Ideal) ((c : Thread nD τ).loc b)) (c : Dev nD)

/-- Where each window's block sits at point `t`: the row tile is t mod 64, the column half t div 64. -/
theorem idx_facts : ∀ t : Fin cfg0.N,
    win0_0.index t (0 : Fin 2) = t.val % 64 ∧ win0_0.index t (1 : Fin 2) = 0
  ∧ win0_1.index t (0 : Fin 2) = t.val / 64 ∧ win0_1.index t (1 : Fin 2) = 0
  ∧ win0_2.index t (0 : Fin 2) = 0 ∧ win0_2.index t (1 : Fin 2) = t.val / 64
  ∧ win0_3.index t (0 : Fin 2) = 0 ∧ win0_3.index t (1 : Fin 2) = t.val / 64
  ∧ win0_4.index t (0 : Fin 2) = 0 ∧ win0_4.index t (1 : Fin 2) = t.val / 64
  ∧ win0_5.index t (0 : Fin 2) = 0 ∧ win0_5.index t (1 : Fin 2) = t.val / 64 :=
  (by decide +kernel : ∀ t : Fin grid0.N, _)

theorem t_lt (t : Fin cfg0.N) : t.val < 128 := lt_of_lt_of_eq t.isLt (show cfg0.N = 128 from N_0)

/-- The array row of the tile's row `p` at point `t`. -/
def rowG (t : Fin cfg0.N) (p : Fin 1024) : Fin 65536 := ⟨(t.val % 64) * 1024 + p.val, by have := p.isLt; omega⟩
/-- The array column of the block's column `q` at point `t`. -/
def colG (t : Fin cfg0.N) (q : Fin 512) : Fin 1024 := ⟨(t.val / 64) * 512 + q.val, by have := q.isLt; have := t_lt t; omega⟩

/-- The points' block at point `t` read at (p, k). -/
theorem blk0_at (t : Fin cfg0.N) (p : Fin 1024) (k : Fin 256) :
    (iblk0 V c 0 t : Vec Ideal S1024x256 .f32) (ix2 p k) = V c main_arg0 (ix2 (rowG t p) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * p.val = (t.val % 64) * 1024 + p.val; rw [e0]; omega
  | ⟨1, _⟩ => show win0_0.index t (1 : Fin 2) * 256 + 1 * k.val = k.val; rw [e1]; omega

/-- The codebook block at point `t` read at (q, k). -/
theorem blk1_at (t : Fin cfg0.N) (q : Fin 512) (k : Fin 256) :
    (iblk0 V c 1 t : Vec Ideal S512x256 .bf16) (ix2 q k) = V c main_v3 (ix2 (colG t q) k) := by
  obtain ⟨-, -, e0, e1, -⟩ := idx_facts t
  unfold iblk0
  rw [View.read_apply]
  show V c main_v3 _ = V c main_v3 _
  refine congrArg (V c main_v3) (funext fun a => Fin.ext ?_)
  match a with
  | ⟨0, _⟩ => show win0_1.index t (0 : Fin 2) * 512 + 1 * q.val = (t.val / 64) * 512 + q.val; rw [e0]; omega
  | ⟨1, _⟩ => show win0_1.index t (1 : Fin 2) * 256 + 1 * k.val = k.val; rw [e1]; omega

/-- The weights' block at point `t` read at (0, q). -/
theorem blk2_at (t : Fin cfg0.N) (q : Fin 512) :
    (iblk0 V c 2 t : Vec Ideal S1x512 .f32) (ix2 (0 : Fin 1) q) = V c main_arg2 (ix2 (0 : Fin 1) (colG t q)) := by
  obtain ⟨-, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 1 + 1 * 0 = 0; rw [e0]
  | ⟨1, _⟩ => show win0_2.index t (1 : Fin 2) * 512 + 1 * q.val = (t.val / 64) * 512 + q.val; rw [e1]; omega

/-- The squared norms' block at point `t` read at (0, q). -/
theorem blk3_at (t : Fin cfg0.N) (q : Fin 512) :
    (iblk0 V c 3 t : Vec Ideal S1x512 .f32) (ix2 (0 : Fin 1) q) = V c main_v2 (ix2 (0 : Fin 1) (colG t q)) := by
  obtain ⟨-, -, -, -, -, -, e0, e1, -⟩ := idx_facts t
  unfold iblk0
  rw [View.read_apply]
  show V c main_v2 _ = V c main_v2 _
  refine congrArg (V c main_v2) (funext fun a => Fin.ext ?_)
  match a with
  | ⟨0, _⟩ => show win0_3.index t (0 : Fin 2) * 1 + 1 * 0 = 0; rw [e0]
  | ⟨1, _⟩ => show win0_3.index t (1 : Fin 2) * 512 + 1 * q.val = (t.val / 64) * 512 + q.val; rw [e1]; omega

/-- The negated distances of array column `cc`, down all rows, from the arrays the pass finds. -/
abbrev colOf (cc : Fin 1024) : Fin 65536 → EReal :=
  fun r => ndK (V c main_arg0) (V c main_v3) (V c main_arg2) (V c main_v2) r cc

/-- The tile's value at (p, q) is the array's negated distance at (row, column) of the point. -/
theorem negT_blk (t : Fin cfg0.N) (p : Fin 1024) (q : Fin 512) :
    negT (iblk0 V c 0 t) (iblk0 V c 1 t) (iblk0 V c 2 t) (iblk0 V c 3 t) p q = colOf V c (colG t q) (rowG t p) := by
  show _ = ndK (V c main_arg0) (V c main_v3) (V c main_arg2) (V c main_v2) (rowG t p) (colG t q)
  unfold negT ndK
  simp only [blk0_at, blk1_at, blk2_at, blk3_at]

/-! ## The carried pair is the streaming pair -/

/-- The streaming pair after tiles 0 … n, made total in `n`. -/
def onl (a : Fin 65536 → EReal) (n : ℕ) : EReal × EReal := if h : n < 64 then online a n h else (⊥, 0)

theorem onl_zero (a : Fin 65536 → EReal) : onl a 0 = step (⊥, 0) (fun p => a (rowOf ⟨0, by decide⟩ p)) := rfl

theorem onl_succ (a : Fin 65536 → EReal) (n : ℕ) (h : n + 1 < 64) :
    onl a (n + 1) = step (onl a n) (fun p => a (rowOf ⟨n + 1, h⟩ p)) := by
  unfold onl
  rw [dif_pos h, dif_pos (Nat.lt_of_succ_lt h)]
  rfl

theorem onl_63 (a : Fin 65536 → EReal) : onl a 63 = online a 63 (by decide) := rfl

/-- The carried pair of column `q` after point `n`. -/
abbrev pairAt (n : ℕ) (h : n < cfg0.N) (q : Fin 512) : EReal × EReal :=
  ((outsAt0 V c n h).1 (ix2 (0 : Fin 1) q), (outsAt0 V c n h).2 (ix2 (0 : Fin 1) q))

/-- At the first tile of a column half the pair is one step from the reset pair (−∞, 0). -/
theorem pair_A (t : Fin cfg0.N) (h0 : t.val % 64 = 0) (q : Fin 512) :
    pairAt V c t.val t.isLt q = step (⊥, 0) (fun p => colOf V c (colG t q) (rowG t p)) := by
  unfold pairAt
  rw [outsAt0_A V c t h0]
  dsimp only
  rw [out_A_4, out_A_5]
  refine (step_eq _ _ _ _ _ _ q).trans ?_
  rw [show (resetMax (F := Ideal)) (ix2 (0 : Fin 1) q) = (⊥ : EReal) from pay2_apply q,
    show (resetSum (F := Ideal)) (ix2 (0 : Fin 1) q) = (0 : EReal) from pay3_apply q]
  exact congrArg (step (⊥, 0)) (funext fun p => negT_blk V c t p q)

/-- At a later tile the pair is one step from the pair the tile before left. -/
theorem pair_B (t : Fin cfg0.N) (h0 : ¬t.val % 64 = 0) (q : Fin 512) :
    pairAt V c t.val t.isLt q
      = step (pairAt V c (t.val - 1) (Nat.lt_of_le_of_lt (Nat.sub_le _ _) t.isLt) q) (fun p => colOf V c (colG t q) (rowG t p)) := by
  unfold pairAt
  rw [outsAt0_B V c t h0]
  dsimp only
  rw [out_B_4, out_B_5]
  refine (step_eq _ _ _ _ _ _ q).trans ?_
  exact congrArg (step _) (funext fun p => negT_blk V c t p q)

/-- THE INVARIANT: after point n the carried pair of block column q is the streaming pair, after (n mod 64) + 1 tiles, of the
    array column it belongs to. -/
theorem pair_eq : ∀ (n : ℕ) (h : n < cfg0.N) (q : Fin 512),
    pairAt V c n h q = onl (colOf V c (colG ⟨n, h⟩ q)) (n % 64)
  | 0, h, q => by
    rw [pair_A V c ⟨0, h⟩ rfl q, show (0 % 64) = 0 from rfl, onl_zero]
    refine congrArg (step (⊥, 0)) (funext fun p => congrArg _ (Fin.ext ?_))
    show (0 % 64) * 1024 + p.val = 0 * 1024 + p.val
    omega
  | n + 1, h, q => by
    have hN : n + 1 < 128 := lt_of_lt_of_eq h (show cfg0.N = 128 from N_0)
    by_cases h0 : (n + 1) % 64 = 0
    · rw [pair_A V c ⟨n + 1, h⟩ h0 q, h0, onl_zero]
      refine congrArg (step (⊥, 0)) (funext fun p => congrArg _ (Fin.ext ?_))
      show ((n + 1) % 64) * 1024 + p.val = 0 * 1024 + p.val
      omega
    · rw [pair_B V c ⟨n + 1, h⟩ h0 q]
      show step (pairAt V c n _ q) _ = _
      rw [pair_eq n (Nat.lt_of_succ_lt h) q]
      have hc : colG ⟨n, Nat.lt_of_succ_lt h⟩ q = colG ⟨n + 1, h⟩ q := Fin.ext (by
        show (n / 64) * 512 + q.val = ((n + 1) / 64) * 512 + q.val
        have : n / 64 = (n + 1) / 64 := by omega
        rw [this])
      rw [hc]
      have hm : (n + 1) % 64 = n % 64 + 1 := by omega
      have hlt : n % 64 + 1 < 64 := by omega
      rw [hm, onl_succ _ _ hlt]
      refine congrArg (step _) (funext fun p => congrArg _ (Fin.ext ?_))
      show ((n + 1) % 64) * 1024 + p.val = (n % 64 + 1) * 1024 + p.val
      rw [hm]

/-! ## The two result rows -/

/-- The maximum row the pass leaves: the final streaming pair's maximum of every column. -/
def finalMax : S1x1024.Idx → EReal :=
  fun i => (online (colOf V c ⟨(i 1).val, (i 1).isLt⟩) 63 (by decide)).1

/-- Where the result block of point `t` sits: row 0, columns of the point's half. -/
theorem emb4 (t : Fin cfg0.N) (q : Fin 512) :
    ((cfg0.win 4).blk t).view.emb (ix2 (0 : Fin 1) q) = ix2 (0 : Fin 1) (colG t q) := by
  obtain ⟨-, -, -, -, -, -, -, -, e0, e1, -⟩ := idx_facts t
  refine funext fun a => Fin.ext ?_
  match a with
  | ⟨0, _⟩ => show win0_4.index t (0 : Fin 2) * 1 + 1 * 0 = 0; rw [e0]
  | ⟨1, _⟩ => show win0_4.index t (1 : Fin 2) * 512 + 1 * q.val = (t.val / 64) * 512 + q.val; rw [e1]; omega

/-- What a writing point (the 64th tile of a column half) writes back is its block of the final row. -/
theorem flushed4_eq (t : Fin cfg0.N) (hf : (cfg0.win 4).flush t = true) :
    (dat0 V c).flushed 4 t = ((cfg0.win 4).blk t).view.read (Elt Ideal) (finalMax V c) := by
  have h63 : t.val % 64 = 63 := (flush0_4 t).mp hf
  show (cfg0.win 4).cut (grid0.coords t) ((dat0 V c).after 4 t) = _
  rw [after0_4]
  funext y
  obtain ⟨u, q, rfl⟩ : ∃ (u : Fin 1) (q : Fin 512), y = ix2 u q := ⟨y 0, y 1, eq_ix2 y⟩
  obtain rfl : u = 0 := Subsingleton.elim _ _
  show (outsAt0 V c t.val t.isLt).1 (ix2 (0 : Fin 1) q) = finalMax V c (((cfg0.win 4).blk t).view.emb (ix2 (0 : Fin 1) q))
  rw [emb4]
  have hp := pair_eq V c t.val t.isLt q
  rw [h63, onl_63] at hp
  exact congrArg Prod.fst hp

/-- An index of the result row is in point `t`'s block iff each coordinate is in the block's range. -/
theorem mem_blk4 (t : Fin cfg0.N) (i : S1x1024.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v4_0).slice (win0_4.rect t)).set ↔ _
  rw [View.set_slice_whole, Rect.mem_set_unit]
  exact Iff.rfl

/-- Every column is written back by the 64th tile of its half. -/
theorem cover4 (i : S1x1024.Idx) : ∃ t : Fin cfg0.N, (cfg0.win 4).flush t = true ∧ i ∈ ((cfg0.win 4).blk t).view.set := by
  have hi0 : (i 0).val < 1 := (i 0).isLt
  have hi1 : (i 1).val < 1024 := (i 1).isLt
  have hN : cfg0.N = 128 := N_0
  let t : Fin cfg0.N := ⟨((i 1).val / 512) * 64 + 63, by rw [hN]; omega⟩
  have ht : t.val = ((i 1).val / 512) * 64 + 63 := rfl
  obtain ⟨-, -, -, -, -, -, -, -, e0, e1, -⟩ := idx_facts t
  refine ⟨t, (flush0_4 t).mpr (by rw [ht]; omega), ?_⟩
  rw [mem_blk4]
  intro a
  match a with
  | ⟨0, _⟩ => show win0_4.index t (0 : Fin 2) * 1 ≤ (i 0).val ∧ (i 0).val < win0_4.index t (0 : Fin 2) * 1 + 1; rw [e0]; omega
  | ⟨1, _⟩ => show win0_4.index t (1 : Fin 2) * 512 ≤ (i 1).val ∧ (i 1).val < win0_4.index t (1 : Fin 2) * 512 + 512; rw [e1, ht]; omega

/-- The maximum row after the pass. -/
theorem arr4 : (dat0 V c).arrAt 4 cfg0.N = finalMax V c :=
  (dat0 V c).arrAt_eq_of_cover 4 (finalMax V c) (flushed4_eq V c) (cover4)

theorem arr4_at (cc : Fin 1024) :
    (dat0 V c).arrAt 4 cfg0.N (ix2 (0 : Fin 1) cc) = (online (colOf V c cc) 63 (by decide)).1 := by
  rw [arr4]; rfl

/-- The sum row the pass leaves: the final streaming pair's sum of every column. -/
def finalSum : S1x1024.Idx → EReal :=
  fun i => (online (colOf V c ⟨(i 1).val, (i 1).isLt⟩) 63 (by decide)).2

/-- Where the result block of point `t` sits: row 0, columns of the point's half. -/
theorem emb5 (t : Fin cfg0.N) (q : Fin 512) :
    ((cfg0.win 5).blk t).view.emb (ix2 (0 : Fin 1) q) = ix2 (0 : Fin 1) (colG t q) := by
  obtain ⟨-, -, -, -, -, -, -, -, -, -, e0, e1⟩ := idx_facts t
  refine funext fun a => Fin.ext ?_
  match a with
  | ⟨0, _⟩ => show win0_5.index t (0 : Fin 2) * 1 + 1 * 0 = 0; rw [e0]
  | ⟨1, _⟩ => show win0_5.index t (1 : Fin 2) * 512 + 1 * q.val = (t.val / 64) * 512 + q.val; rw [e1]; omega

/-- What a writing point (the 64th tile of a column half) writes back is its block of the final row. -/
theorem flushed5_eq (t : Fin cfg0.N) (hf : (cfg0.win 5).flush t = true) :
    (dat0 V c).flushed 5 t = ((cfg0.win 5).blk t).view.read (Elt Ideal) (finalSum V c) := by
  have h63 : t.val % 64 = 63 := (flush0_5 t).mp hf
  show (cfg0.win 5).cut (grid0.coords t) ((dat0 V c).after 5 t) = _
  rw [after0_5]
  funext y
  obtain ⟨u, q, rfl⟩ : ∃ (u : Fin 1) (q : Fin 512), y = ix2 u q := ⟨y 0, y 1, eq_ix2 y⟩
  obtain rfl : u = 0 := Subsingleton.elim _ _
  show (outsAt0 V c t.val t.isLt).2 (ix2 (0 : Fin 1) q) = finalSum V c (((cfg0.win 5).blk t).view.emb (ix2 (0 : Fin 1) q))
  rw [emb5]
  have hp := pair_eq V c t.val t.isLt q
  rw [h63, onl_63] at hp
  exact congrArg Prod.snd hp

/-- An index of the result row is in point `t`'s block iff each coordinate is in the block's range. -/
theorem mem_blk5 (t : Fin cfg0.N) (i : S1x1024.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v4_1).slice (win0_5.rect t)).set ↔ _
  rw [View.set_slice_whole, Rect.mem_set_unit]
  exact Iff.rfl

/-- Every column is written back by the 64th tile of its half. -/
theorem cover5 (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hN : cfg0.N = 128 := N_0
  let t : Fin cfg0.N := ⟨((i 1).val / 512) * 64 + 63, by rw [hN]; omega⟩
  have ht : t.val = ((i 1).val / 512) * 64 + 63 := rfl
  obtain ⟨-, -, -, -, -, -, -, -, -, -, e0, e1⟩ := idx_facts t
  refine ⟨t, (flush0_5 t).mpr (by rw [ht]; omega), ?_⟩
  rw [mem_blk5]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 512 ≤ (i 1).val ∧ (i 1).val < win0_5.index t (1 : Fin 2) * 512 + 512; rw [e1, ht]; omega

/-- The sum row after the pass. -/
theorem arr5 : (dat0 V c).arrAt 5 cfg0.N = finalSum V c :=
  (dat0 V c).arrAt_eq_of_cover 5 (finalSum V c) (flushed5_eq V c) (cover5)

theorem arr5_at (cc : Fin 1024) :
    (dat0 V c).arrAt 5 cfg0.N (ix2 (0 : Fin 1) cc) = (online (colOf V c cc) 63 (by decide)).2 := by
  rw [arr5]; rfl

end Cert.KernelIdeal.Stats

end
-- ==== Proof.Tile1.lean ====
/-
  The final pass's arithmetic read at an index, at the exact (extended real) values.

  For one row tile (1024 rows) against one block of 1024 codebook columns, the value at (p, q) is
      negT p q = 0 − √max(Σ_k x_pk² − 2·Σ_k x_pk s_qk + ‖s_q‖², 0) · w_q,
  and the tile's result is exp(negT p q − c_q) for the column's shift c_q (the column maximum plus the logarithm of the
  column sum).
-/
import proofs.«179421_j68307159876092_2_alg».proof.Proof.Gen.KernelIdeal.Skeleton
import proofs.«179421_j68307159876092_2_alg».proof.Proof.Spec
import proofs.«179421_j68307159876092_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile1

open Idealize.ShloMosaic Idealize.ShloMosaic.ValueIdx Cert.LibLayoutCols
open Cert.KernelIdeal Cert.KernelIdeal.Gen

theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl

/-- The tile's negated weighted distance at row `p` and column `q`, from the blocks: the row block of points `x0`, the block of
    codebook vectors `x1`, the weights `x2` and the squared codebook norms `x3`. -/
def negT (x0 : Vec Ideal S1024x256 .f32) (x1 : Vec Ideal S1024x256 .bf16) (x2 x3 : Vec Ideal S1x1024 .f32) (p : Fin 1024) (q : Fin 1024) : EReal :=
  Ideal.ofBits .f32 0x00000000#32 - Ideal.sqrt (max ((∑ k : Fin 256, x0 (ix2 p k) * x0 (ix2 p k))
      - Ideal.ofBits .f32 0x40000000#32 * (∑ k : Fin 256, x0 (ix2 p k) * x1 (ix2 q k)) + x3 (ix2 (0 : Fin 1) q))
    (Ideal.ofBits .f32 0x00000000#32)) * x2 (ix2 (0 : Fin 1) q)

/-- A row's sum of squares kept as a column and spread over the tile's columns. -/
theorem rowSq_apply (x0 : Vec Ideal S1024x256 .f32) (hacc : (0x00000000#32 : BitVec 32) = 0x00000000#32) (p : Fin 1024) (q : Fin 1024) :
    broadcastTo S1024x1024 (shapeCast S1024x1 (multiReduction (F := Ideal) .add [1] S1024 (mulf x0 x0) 0x00000000#32 reduces_S1024x256_S1024 (.inl rfl) hacc)
      shapeCasts_S1024_S1024x1) broadcasts_S1024x1_S1024x1024 (ix2 p q) = ∑ k : Fin 256, x0 (ix2 p k) * x0 (ix2 p k) := by
  refine (broadcastTo_a1_ab_apply _ _ p q).trans ((shapeCast_a_a1_apply _ _ p 0).trans ?_)
  refine (Ideal.multiReduction_add_single (mulf x0 x0) 0x00000000#32 reduces_S1024x256_S1024 (.inl rfl) hacc (ix1 p)).trans ?_
  refine Finset.sum_congr rfl fun k _ => ?_
  have e : reduces_S1024x256_S1024.lift (ix1 p) k = ix2 p (⟨k.val, k.isLt⟩ : Fin 256) :=
    funext fun a => Fin.ext (by match a with | ⟨0, _⟩ => rfl | ⟨1, _⟩ => rfl)
  rw [e]; rfl

theorem lhs_0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the row block with the transposed codebook block: an inner product per (row, column). -/
theorem dot_apply (x0 : Vec Ideal S1024x256 .f32) (x1 : Vec Ideal S1024x256 .bf16) (p : Fin 1024) (q : Fin 1024) :
    matmul (F := Ideal) dot_S1024x256_S256x1024_S1024x1024_1_0_0_1_n_n none (truncf .bf16 x0 bitsLt_bf16_f32)
      (transpose S256x1024 [1, 0] (shapeCast S1024x256 x1 shapeCasts_S1024x256_S1024x256 : FVec Ideal S1024x256 .bf16) transposes_S1024x256_p1_0_S256x1024)
      (constant S1024x1024 .f32 0x00000000#32) (ix2 p q) = ∑ k : Fin 256, x0 (ix2 p k) * x1 (ix2 q k) := by
  rw [shapeCast_self]
  refine (Ideal.matmul_constant_zero_apply dot_S1024x256_S256x1024_S1024x1024_1_0_0_1_n_n none _ _ (ix2 p q)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_0 _ _).trans hk
    | ⟨1, _⟩ => exact rhs_1 _ _)
  rw [el, er, transpose_ix2_apply]
  rfl

/-- The tile's value at an index: the exponential of the negated weighted distance below the column's shift. -/
theorem pay1_apply (x0 : Vec Ideal S1024x256 .f32) (x1 : Vec Ideal S1024x256 .bf16) (x2 x3 x4 : Vec Ideal S1x1024 .f32) (p q : Fin 1024) :
    k1_pay1 (F := Ideal) x0 x1 x3 x2 x4 (ix2 p q) = Ideal.exp (negT x0 x1 x2 x3 p q - x4 (ix2 (0 : Fin 1) q)) := by
  unfold k1_pay1 negT
  simp only [exp_apply, subf_apply, mulf_apply, addf_apply, maximumf_apply, broadcast_apply, sqrt_apply]
  rw [rowSq_apply x0 _ p q, dot_apply x0 x1 p q, broadcastTo_1b_ab_apply, broadcastTo_1b_ab_apply, broadcastTo_1b_ab_apply,
    shapeCast_self, shapeCast_self]
  rfl

end Cert.KernelIdeal.Tile1

end
-- ==== Proof.Final.lean ====
/-
  The final pass's result array as one function of the arrays it reads.

  The pass walks the 65536 rows in 64 tiles of 1024. At tile t it reads rows t·1024 … t·1024 + 1023 of the points, the
  whole codebook block, the weights, the squared codebook norms and the per-column shift, and writes rows
  t·1024 … t·1024 + 1023 of the result: at (r, c) the value exp(ndK r c − shift c). The 64 tiles cover every row, so the
  array ends holding that function everywhere.
-/
import proofs.«179421_j68307159876092_2_alg».proof.Proof.Gen.KernelIdeal.Frame
import proofs.«179421_j68307159876092_2_alg».proof.Proof.Tile1
import proofs.«179421_j68307159876092_2_alg».proof.Proof.NdK
import Idealize.ShloMosaic.Lib.Pipeline.Value
import Idealize.ShloMosaic.Lib.ValueIdx

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.ColSoftmax Idealize.ShloMosaic.ValueIdx

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block index maps over the 64 tiles: the points and the result move with the tile along the rows, every other
    operand is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 64 := by
  have h := t.isLt
  have e : cfg1.N = 64 := N_1
  omega

/-- Row p of tile t. -/
def rowAt (t : Fin cfg1.N) (p : Fin 1024) : Fin 65536 := ⟨t.val * 1024 + p.val, by have := t_lt t; have := p.isLt; omega⟩

/-- Tile t of the points is rows t·1024 + p of the array. -/
theorem iblk0_apply (t : Fin cfg1.N) (p : Fin 1024) (k : Fin 256) :
    (iblk1 V c 0 t : Vec Ideal S1024x256 .f32) (ix2 p k) = (V c main_arg0 : S65536x256.Idx → EReal) (ix2 (rowAt t p) k) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 1024 + 1 * p.val = t.val * 1024 + p.val; rw [e0]; omega
  | ⟨1, _⟩ => show win1_0.index t 1 * 256 + 1 * k.val = k.val; rw [e1]; omega

/-- The codebook block is the whole array at every tile. -/
theorem iblk1_apply (t : Fin cfg1.N) (q : Fin 1024) (k : Fin 256) :
    (iblk1 V c 1 t : Vec Ideal S1024x256 .bf16) (ix2 q k) = (V c main_v3 : S1024x256.Idx → EReal) (ix2 q k) := by
  obtain ⟨-, -, e0, e1, -⟩ := idx_facts t
  unfold iblk1
  rw [View.read_apply]
  show V c main_v3 _ = V c main_v3 _
  congr 1
  funext a
  apply Fin.ext
  match a with
  | ⟨0, _⟩ => show win1_1.index t 0 * 1024 + 1 * q.val = q.val; rw [e0]; omega
  | ⟨1, _⟩ => show win1_1.index t 1 * 256 + 1 * k.val = k.val; rw [e1]; omega

/-- The weights are the whole row vector at every tile. -/
theorem iblk2_apply (t : Fin cfg1.N) (q : Fin 1024) :
    (iblk1 V c 2 t : Vec Ideal S1x1024 .f32) (ix2 (0 : Fin 1) q) = (V c main_arg2 : S1x1024.Idx → EReal) (ix2 (0 : Fin 1) q) := by
  obtain ⟨-, -, -, -, e0, e1, -⟩ := idx_facts t
  unfold iblk1
  rw [View.read_apply]
  show V c main_arg2 _ = V c main_arg2 _
  congr 1
  funext a
  apply Fin.ext
  match a with
  | ⟨0, _⟩ => show win1_2.index t 0 * 1 + 1 * 0 = 0; rw [e0]
  | ⟨1, _⟩ => show win1_2.index t 1 * 1024 + 1 * q.val = q.val; rw [e1]; omega

/-- The squared codebook norms are the whole row vector at every tile. -/
theorem iblk3_apply (t : Fin cfg1.N) (q : Fin 1024) :
    (iblk1 V c 3 t : Vec Ideal S1x1024 .f32) (ix2 (0 : Fin 1) q) = (V c main_v2 : S1x1024.Idx → EReal) (ix2 (0 : Fin 1) q) := by
  obtain ⟨-, -, -, -, -, -, e0, e1, -⟩ := idx_facts t
  unfold iblk1
  rw [View.read_apply]
  show V c main_v2 _ = V c main_v2 _
  congr 1
  funext a
  apply Fin.ext
  match a with
  | ⟨0, _⟩ => show win1_3.index t 0 * 1 + 1 * 0 = 0; rw [e0]
  | ⟨1, _⟩ => show win1_3.index t 1 * 1024 + 1 * q.val = q.val; rw [e1]; omega

/-- The column shifts are the whole row vector at every tile. -/
theorem iblk4_apply (t : Fin cfg1.N) (q : Fin 1024) :
    (iblk1 V c 4 t : Vec Ideal S1x1024 .f32) (ix2 (0 : Fin 1) q) = (V c main_v6 : S1x1024.Idx → EReal) (ix2 (0 : Fin 1) q) := by
  obtain ⟨-, -, -, -, -, -, -, -, e0, e1, -⟩ := idx_facts t
  unfold iblk1
  rw [View.read_apply]
  show V c main_v6 _ = V c main_v6 _
  congr 1
  funext a
  apply Fin.ext
  match a with
  | ⟨0, _⟩ => show win1_4.index t 0 * 1 + 1 * 0 = 0; rw [e0]
  | ⟨1, _⟩ => show win1_4.index t 1 * 1024 + 1 * q.val = q.val; rw [e1]; omega

/-- One tile's result at (p, q), over blocks that read arrays A0 … A4 at row R for the points and whole for the rest:
    exp(ndK R q − A4 q). -/
theorem tile_eq (x0 : Vec Ideal S1024x256 .f32) (x1 : Vec Ideal S1024x256 .bf16) (x2 x3 x4 : Vec Ideal S1x1024 .f32)
    (A0 : S65536x256.Idx → EReal) (A1 : S1024x256.Idx → EReal) (A2 A3 A4 : S1x1024.Idx → EReal)
    (p q : Fin 1024) (R : Fin 65536)
    (h0 : ∀ k : Fin 256, x0 (ix2 p k) = A0 (ix2 R k)) (h1 : ∀ k : Fin 256, x1 (ix2 q k) = A1 (ix2 q k))
    (h2 : x2 (ix2 (0 : Fin 1) q) = A2 (ix2 (0 : Fin 1) q)) (h3 : x3 (ix2 (0 : Fin 1) q) = A3 (ix2 (0 : Fin 1) q))
    (h4 : x4 (ix2 (0 : Fin 1) q) = A4 (ix2 (0 : Fin 1) q)) :
    k1_pay1 (F := Ideal) x0 x1 x3 x2 x4 (ix2 p q) = Ideal.exp (ndK A0 A1 A2 A3 R q - A4 (ix2 (0 : Fin 1) q)) := by
  rw [Tile1.pay1_apply]
  unfold Tile1.negT ndK
  simp only [h0, h1, h2, h3, h4]

/-- The result array as one function of the arrays the pass reads. -/
def G : S65536x1024.Idx → EReal := fun i =>
  Ideal.exp (ndK (V c main_arg0) (V c main_v3) (V c main_arg2) (V c main_v2) ⟨(i 0).val, (i 0).isLt⟩ ⟨(i 1).val, (i 1).isLt⟩
    - (V c main_v6 : S1x1024.Idx → EReal) (ix2 (0 : Fin 1) ⟨(i 1).val, (i 1).isLt⟩))

/-- The function at an index whose coordinates are (R, q). -/
theorem G_apply (i : S65536x1024.Idx) (R : Fin 65536) (q : Fin 1024) (h0 : (i 0).val = R.val) (h1 : (i 1).val = q.val) :
    G V c i = Ideal.exp (ndK (V c main_arg0) (V c main_v3) (V c main_arg2) (V c main_v2) R q
      - (V c main_v6 : S1x1024.Idx → EReal) (ix2 (0 : Fin 1) q)) := by
  obtain rfl : R = ⟨(i 0).val, (i 0).isLt⟩ := Fin.ext h0.symm
  obtain rfl : q = ⟨(i 1).val, (i 1).isLt⟩ := Fin.ext h1.symm
  rfl

/-- What tile t writes back is block t of the function: rows t·1024 … t·1024 + 1023, all columns. -/
theorem flushed_eq (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1024x256) hz, View.ld_unit_zero (S := S1x1024) hz]
  obtain ⟨-, -, -, -, -, -, -, -, -, -, e0, e1⟩ := idx_facts t
  funext y
  have hp : (y 0).val < 1024 := (y 0).isLt
  have hq : (y 1).val < 1024 := (y 1).isLt
  have hx : (cfg1.win 5).xinj (grid1.coords t) y = ix2 (⟨(y 0).val, hp⟩ : Fin 1024) (⟨(y 1).val, hq⟩ : Fin 1024) :=
    funext fun a => by match a with | ⟨0, _⟩ => rfl | ⟨1, _⟩ => rfl
  show k1_pay1 (F := Ideal) (iblk1 V c 0 t) (iblk1 V c 1 t) (iblk1 V c 3 t) (iblk1 V c 2 t) (iblk1 V c 4 t)
      ((cfg1.win 5).xinj (grid1.coords t) y) = G V c (((cfg1.win 5).blk t).view.emb y)
  rw [hx]
  refine (tile_eq (iblk1 V c 0 t) (iblk1 V c 1 t) (iblk1 V c 2 t) (iblk1 V c 3 t) (iblk1 V c 4 t)
    (V c main_arg0) (V c main_v3) (V c main_arg2) (V c main_v2) (V c main_v6) ⟨(y 0).val, hp⟩ ⟨(y 1).val, hq⟩
    (rowAt t ⟨(y 0).val, hp⟩) (fun k => iblk0_apply V c t _ k) (fun k => iblk1_apply V c t _ k)
    (iblk2_apply V c t _) (iblk3_apply V c t _) (iblk4_apply V c t _)).trans ?_
  refine (G_apply V c _ _ _ ?_ ?_).symm
  · show win1_5.index t 0 * 1024 + 1 * (y 0).val = t.val * 1024 + (y 0).val
    rw [e0]; omega
  · show win1_5.index t 1 * 1024 + 1 * (y 1).val = (y 1).val
    rw [e1]; omega

/-- An index of the array is in tile t's block iff each coordinate is in the block's range on its axis. -/
theorem mem_blk (t : Fin cfg1.N) (i : S65536x1024.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v7).slice (win1_5.rect t)).set ↔ _
  rw [View.set_slice_whole, Rect.mem_set_unit]
  exact Iff.rfl

/-- Every index is in some tile's block: row r is in tile r / 1024. -/
theorem cover (i : S65536x1024.Idx) :
    ∃ t : Fin cfg1.N, (cfg1.win 5).flush t = true ∧ i ∈ ((cfg1.win 5).blk t).view.set := by
  have hi0 : (i 0).val < 65536 := (i 0).isLt
  have hi1 : (i 1).val < 1024 := (i 1).isLt
  have hN : cfg1.N = 64 := N_1
  obtain ⟨t, ht⟩ : ∃ t : Fin cfg1.N, t.val = (i 0).val / 1024 := ⟨⟨(i 0).val / 1024, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t 0 * 1024 ≤ (i 0).val ∧ (i 0).val < win1_5.index t 0 * 1024 + 1024
    rw [e0, ht]; omega
  | ⟨1, _⟩ =>
    show win1_5.index t 1 * 1024 ≤ (i 1).val ∧ (i 1).val < win1_5.index t 1 * 1024 + 1024
    rw [e1]; omega

/-- The result array after the pass: exp(ndK r c − shift c) at every (r, c). -/
theorem final_arr (r : Fin 65536) (cc : Fin 1024) :
    (dat1 V c).arrAt 5 cfg1.N (ix2 r cc)
      = Ideal.exp (ndK (V c main_arg0) (V c main_v3) (V c main_arg2) (V c main_v2) r cc - V c main_v6 (ix2 (0 : Fin 1) cc)) := by
  have h := (dat1 V c).arrAt_eq_of_cover 5 (G V c) (fun t _ => flushed_eq V c t) cover
  exact (congrFun h (ix2 r cc)).trans (G_apply V c (ix2 r cc) r cc rfl rfl)

end Cert.KernelIdeal.Final

end
-- ==== Proof.HostVals.lean ====
/-
  The host operations of the kernel's program, read at the boundaries of its two regions.

  Before the first region the host squares the codebook array elementwise, sums the squares along each row (from zero) into
  the squared norms ‖s_c‖², lays them out as a 1 × 1024 row, and narrows the codebook array (the identity on the extended
  reals). No host operation writes an argument, so the arguments are as launched. Between the two regions the host takes
  the logarithm of the first region's second result and adds it to the first result; everything the first region only read
  is unchanged.
-/
import proofs.«179421_j68307159876092_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## No host operation writes an argument or a buffer it only reads -/

/-- The first stretch of host operations leaves the buffer b as it was when b is none of their results. -/
theorem W1_of_not_written (b : Ref sig .tc)
    (hb : b ≠ main_v0 ∧ b ≠ main_cst ∧ b ≠ main_v1 ∧ b ≠ main_v2 ∧ b ≠ main_v3) :
    W1 (F := Ideal) m ρ c (Proc.devRef .tc b) = W0 (F := Ideal) m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4⟩ := hb
    refine ⟨?_, ?_, ?_, ?_, ?_⟩
    · exact StableHlo.devRef_ne_of_ne h0
    · exact StableHlo.devRef_ne_of_ne h1
    · exact StableHlo.devRef_ne_of_ne h2
    · exact StableHlo.devRef_ne_of_ne h3
    · exact StableHlo.devRef_ne_of_ne h4))

/-- The second stretch of host operations leaves the buffer b as it was when b is neither of their results. -/
theorem W3_of_not_written (b : Ref sig .tc) (hb : b ≠ main_v5 ∧ b ≠ main_v6) :
    W3 (F := Ideal) m ρ c (Proc.devRef .tc b) = W2 (F := Ideal) m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1⟩ := hb
    refine ⟨?_, ?_⟩
    · exact StableHlo.devRef_ne_of_ne h0
    · exact StableHlo.devRef_ne_of_ne h1))

/-- An input window's array is unchanged by the first region. -/
theorem W2_input (w : Fin cfg0.W) (hw : (cfg0.win w).isOut = false) :
    W2 (F := Ideal) m ρ c (Proc.devRef .tc (Pipeline.arrRef spec0 w))
      = W1 (F := Ideal) m ρ c (Proc.devRef .tc (Pipeline.arrRef spec0 w)) :=
  (W2_arr m ρ c w).trans (((dat0 (V1 m ρ) c).arrAt_in w hw _).trans (A_eq0 (V1 m ρ) c w))

/-! ## Region 0's entry contents -/

theorem V1_arg0 : V1 (F := Ideal) m ρ c main_arg0 = m ((c : Thread nD τ).loc main_arg0) :=
  W1_of_not_written m ρ c main_arg0 (by decide)

theorem V1_arg2 : V1 (F := Ideal) m ρ c main_arg2 = m ((c : Thread nD τ).loc main_arg2) :=
  W1_of_not_written m ρ c main_arg2 (by decide)

theorem W1_arg1 : W1 (F := Ideal) m ρ c (Proc.devRef .tc main_arg1) = m ((c : Thread nD τ).loc main_arg1) :=
  W1_of_not_written m ρ c main_arg1 (by decide)

/-- The narrowed codebook array is the codebook array: narrowing is the identity on the extended reals. -/
theorem V1_v3 : (V1 (F := Ideal) m ρ c main_v3 : S1024x256.Idx → EReal) = m ((c : Thread nD τ).loc main_arg1) := by
  show StableHlo.after hostOps0 (W0 (F := Ideal) m ρ c) (Proc.devRef .tc main_v3) = _
  after_results
  rfl

/-- The squared norms as the host lays them out: the operations' term over the codebook array. -/
theorem V1_v2 : (V1 (F := Ideal) m ρ c main_v2 : S1x1024.Idx → EReal)
    = broadcastInDim S1x1024 ![1] Facts₀.bcast_S1024_S1x1024_1
        (Host.reduceAdd (F := Ideal) (mulf (m ((c : Thread nD τ).loc main_arg1)) (m ((c : Thread nD τ).loc main_arg1)))
          (constant (F := Ideal) S_ .f32 0x00000000#32) Facts₀.reducesTo_S1024x256_S1024_d1 Facts₀.h_S_) := by
  show StableHlo.after hostOps0 (W0 (F := Ideal) m ρ c) (Proc.devRef .tc main_v2) = _
  after_results

/-- The squared norm of codebook vector cc, from zero, over any name y of the codebook array as launched. -/
theorem V1_v2_at_of (y : S1024x256.Idx → EReal) (hy : (m ((c : Thread nD τ).loc main_arg1) : S1024x256.Idx → EReal) = y)
    (cc : Fin 1024) :
    (V1 (F := Ideal) m ρ c main_v2 : S1x1024.Idx → EReal) (ix2 (0 : Fin 1) cc)
      = Ideal.ofBits .f32 0x00000000#32 + ∑ k : Fin 256, y (ix2 cc k) * y (ix2 cc k) := by
  refine (congrFun (V1_v2 m ρ c) (ix2 (0 : Fin 1) cc)).trans ?_
  rw [hy]
  rw [broadcastInDim_apply _ Facts₀.bcast_S1024_S1x1024_1 _ (ix2 (0 : Fin 1) cc) (ix1 cc) (fun a => match a with
    | ⟨0, _⟩ => by show cc.val = if (1024 : Nat) = 1 then 0 else cc.val; rw [if_neg (by decide)])]
  simp only [Host.reduceAdd, Ideal.hostReduceAdd_def]
  rw [Ideal.hostReduceAdd_single Facts₀.reducesTo_S1024x256_S1024_d1 (by decide)]
  refine congrArg (_ + ·) (Finset.sum_congr rfl fun k _ => ?_)
  exact congrArg (fun i : S1024x256.Idx => y i * y i) (funext fun a => Fin.ext (by match a with | ⟨0, _⟩ => rfl | ⟨1, _⟩ => rfl))

/-- The squared norm of codebook vector cc, from zero, over the codebook array as launched. -/
theorem V1_v2_at (cc : Fin 1024) :
    (V1 (F := Ideal) m ρ c main_v2 : S1x1024.Idx → EReal) (ix2 (0 : Fin 1) cc)
      = Ideal.ofBits .f32 0x00000000#32
        + ∑ k : Fin 256, @HMul.hMul EReal EReal EReal instHMul (m ((c : Thread nD τ).loc main_arg1) (ix2 cc k))
            (m ((c : Thread nD τ).loc main_arg1) (ix2 cc k)) :=
  V1_v2_at_of m ρ c _ rfl cc

/-! ## Region 1's entry contents -/

theorem V3_arg0 : V3 (F := Ideal) m ρ c main_arg0 = m ((c : Thread nD τ).loc main_arg0) :=
  (W3_of_not_written m ρ c main_arg0 (by decide)).trans ((W2_input m ρ c 0 rfl).trans (V1_arg0 m ρ c))

theorem V3_arg2 : V3 (F := Ideal) m ρ c main_arg2 = m ((c : Thread nD τ).loc main_arg2) :=
  (W3_of_not_written m ρ c main_arg2 (by decide)).trans ((W2_input m ρ c 2 rfl).trans (V1_arg2 m ρ c))

theorem V3_v3 : V3 (F := Ideal) m ρ c main_v3 = V1 (F := Ideal) m ρ c main_v3 :=
  (W3_of_not_written m ρ c main_v3 (by decide)).trans (W2_input m ρ c 1 rfl)

theorem V3_v2 : V3 (F := Ideal) m ρ c main_v2 = V1 (F := Ideal) m ρ c main_v2 :=
  (W3_of_not_written m ρ c main_v2 (by decide)).trans (W2_input m ρ c 3 rfl)

/-- The first region's first result plus the logarithm of its second. -/
theorem V3_v6 : (V3 (F := Ideal) m ρ c main_v6 : FVec Ideal S1x1024 .f32)
    = addf (F := Ideal) (s := S1x1024) (φ := .f32) ((dat0 (V1 m ρ) c).arrAt 4 cfg0.N)
        (Host.log (F := Ideal) (s := S1x1024) (φ := .f32) ((dat0 (V1 m ρ) c).arrAt 5 cfg0.N)) := by
  have e4 : W2 (F := Ideal) m ρ c (Proc.devRef .tc main_v4_0) = (dat0 (V1 m ρ) c).arrAt 4 cfg0.N := W2_arr m ρ c 4
  have e5 : W2 (F := Ideal) m ρ c (Proc.devRef .tc main_v4_1) = (dat0 (V1 m ρ) c).arrAt 5 cfg0.N := W2_arr m ρ c 5
  show StableHlo.after hostOps1 (W2 (F := Ideal) m ρ c) (Proc.devRef .tc main_v6) = _
  after_results
  rw [e4, e5]

/-- The same at column cc, over any names a, b of the first region's two results. -/
theorem V3_v6_at_of (a b : S1x1024.Idx → EReal)
    (ha : ((dat0 (V1 (F := Ideal) m ρ) c).arrAt 4 cfg0.N : S1x1024.Idx → EReal) = a)
    (hb : ((dat0 (V1 (F := Ideal) m ρ) c).arrAt 5 cfg0.N : S1x1024.Idx → EReal) = b) (cc : Fin 1024) :
    (V3 (F := Ideal) m ρ c main_v6 : S1x1024.Idx → EReal) (ix2 (0 : Fin 1) cc)
      = a (ix2 (0 : Fin 1) cc) + Ideal.log (b (ix2 (0 : Fin 1) cc)) := by
  refine (congrFun (V3_v6 m ρ c) (ix2 (0 : Fin 1) cc)).trans ?_
  rw [ha, hb]
  rfl

/-- The same at column cc, over the first region's two results as its pipeline leaves them. -/
theorem V3_v6_at (cc : Fin 1024) :
    (V3 (F := Ideal) m ρ c main_v6 : S1x1024.Idx → EReal) (ix2 (0 : Fin 1) cc)
      = @HAdd.hAdd EReal EReal EReal instHAdd ((dat0 (V1 (F := Ideal) m ρ) c).arrAt 4 cfg0.N (ix2 (0 : Fin 1) cc))
          (Ideal.log ((dat0 (V1 (F := Ideal) m ρ) c).arrAt 5 cfg0.N (ix2 (0 : Fin 1) cc))) :=
  V3_v6_at_of m ρ c _ _ rfl rfl cc

end Cert.KernelIdeal.HostVals

end
-- ==== Proof.Algebra.lean ====
/-
  The streaming (online) softmax pair gives the direct column softmax on a column of real numbers.

  Write a r = ↑(α r). After tile n the running pair is (↑M, ↑S) where M is the maximum of α over the rows of tiles
  0 … n (an upper bound of those rows that is attained) and S = Σ exp(α r − M) over those rows: growing the maximum from
  M to M' multiplies every earlier term by exp(M − M'), and exp(x − M)·exp(M − M') = exp(x − M'). After the last tile the
  rows are all of the column, so M is the column maximum and S ≥ 1 the column sum, and
  exp(x − (M + log S)) = exp(x − M) / S.
-/
import proofs.«179421_j68307159876092_2_alg».proof.Proof.Spec
import Mathlib

noncomputable section

namespace Cert.ColSoftmax

open Idealize.ShloMosaic

/-! ## Coercion of reals into the extended reals -/

theorem coe_max' (x y : ℝ) : max (x : EReal) (y : EReal) = ((max x y : ℝ) : EReal) :=
  (EReal.coe_strictMono.monotone.map_max).symm

theorem coe_sum' {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem exp_coe_sub (x y : ℝ) :
    Ideal.exp ((x : EReal) - (y : EReal)) = ((Real.exp (x - y) : ℝ) : EReal) := by
  rw [← EReal.coe_sub]; rfl

theorem sum_exp_coe {ι : Type*} (s : Finset ι) (f : ι → ℝ) (M : ℝ) :
    ∑ i ∈ s, Ideal.exp ((f i : EReal) - (M : EReal)) = ((∑ i ∈ s, Real.exp (f i - M) : ℝ) : EReal) := by
  rw [← coe_sum']; exact Finset.sum_congr rfl (fun i _ => exp_coe_sub _ _)

/-- The fold of max from −∞ over coerced reals is the coerced maximum, the maximum being given by its universal
    property: an upper bound that is attained. -/
theorem fold_max_eq {ι : Type*} (s : Finset ι) (f : ι → ℝ) (M : ℝ)
    (hle : ∀ i ∈ s, f i ≤ M) (hex : ∃ i ∈ s, f i = M) :
    s.fold max ⊥ (fun i => (f i : EReal)) = (M : EReal) := by
  have h : s.fold max ⊥ (fun i => (f i : EReal)) = s.sup (fun i => (f i : EReal)) := rfl
  rw [h]
  apply le_antisymm
  · exact Finset.sup_le (fun i hi => EReal.coe_le_coe_iff.2 (hle i hi))
  · obtain ⟨i, hi, rfl⟩ := hex
    exact Finset.le_sup (f := fun i => (f i : EReal)) hi

/-- A nonempty finite family of reals has a maximum, and the fold computes it. -/
theorem tile_max {κ : Type*} [Fintype κ] [Nonempty κ] (g : κ → ℝ) :
    ∃ N : ℝ, (∀ p, g p ≤ N) ∧ (∃ q, g q = N) ∧
      (Finset.univ : Finset κ).fold max ⊥ (fun p => (g p : EReal)) = (N : EReal) := by
  obtain ⟨q, -, hq⟩ := Finset.exists_max_image (Finset.univ : Finset κ) g Finset.univ_nonempty
  exact ⟨g q, fun p => hq p (Finset.mem_univ p), ⟨q, rfl⟩,
    fold_max_eq _ g (g q) (fun p hp => hq p hp) ⟨q, Finset.mem_univ q, rfl⟩⟩

/-! ## The invariant of the running pair -/

/-- After tiles 0 … n of the real tiles t, the pair is (↑M, ↑S): M bounds every entry seen and is attained, and S is
    the sum of exp(entry − M) over the entries seen. -/
def Good (t : ℕ → Fin 1024 → ℝ) (n : ℕ) (ms : EReal × EReal) : Prop :=
  ∃ M : ℝ, ms.1 = (M : EReal) ∧ (∀ i ≤ n, ∀ p, t i p ≤ M) ∧ (∃ i ≤ n, ∃ p, t i p = M) ∧
    ms.2 = ((∑ i ∈ Finset.range (n + 1), ∑ p, Real.exp (t i p - M) : ℝ) : EReal)

/-- From the start pair (−∞, 0): max ⊥ y = y, the old sum contributes 0 · exp ⊥ = 0. -/
theorem good_base (t : ℕ → Fin 1024 → ℝ) :
    Good t 0 (step (⊥, 0) (fun p => (t 0 p : EReal))) := by
  obtain ⟨N, hN, ⟨q, hq⟩, hfold⟩ := tile_max (t 0)
  have hmax : max (⊥ : EReal) ((Finset.univ : Finset (Fin 1024)).fold max ⊥ (fun p => (t 0 p : EReal)))
      = (N : EReal) := by rw [hfold]; exact max_eq_right bot_le
  refine ⟨N, ?_, ?_, ⟨0, le_rfl, q, hq⟩, ?_⟩
  · simp only [step]; exact hmax
  · intro i hi p
    obtain rfl : i = 0 := Nat.le_zero.1 hi
    exact hN p
  · simp only [step]
    rw [hmax, zero_mul, zero_add, sum_exp_coe, Finset.sum_range_one]

/-- One more tile: the maximum grows to max M N, the earlier terms are rescaled by exp(M − max M N). -/
theorem good_step (t : ℕ → Fin 1024 → ℝ) (n : ℕ) (ms : EReal × EReal) (h : Good t n ms) :
    Good t (n + 1) (step ms (fun p => (t (n + 1) p : EReal))) := by
  obtain ⟨M, h1, hle, ⟨i0, hi0, p0, hp0⟩, h2⟩ := h
  obtain ⟨N, hN, ⟨q, hq⟩, hfold⟩ := tile_max (t (n + 1))
  have hmax : max ms.1 ((Finset.univ : Finset (Fin 1024)).fold max ⊥ (fun p => (t (n + 1) p : EReal)))
      = ((max M N : ℝ) : EReal) := by rw [hfold, h1, coe_max']
  have key : (∑ i ∈ Finset.range (n + 1), ∑ p, Real.exp (t i p - M)) * Real.exp (M - max M N)
      = ∑ i ∈ Finset.range (n + 1), ∑ p, Real.exp (t i p - max M N) := by
    rw [Finset.sum_mul]
    refine Finset.sum_congr rfl (fun i _ => ?_)
    rw [Finset.sum_mul]
    refine Finset.sum_congr rfl (fun p _ => ?_)
    rw [← Real.exp_add, sub_add_sub_cancel]
  refine ⟨max M N, ?_, ?_, ?_, ?_⟩
  · simp only [step]; exact hmax
  · intro i hi p
    rcases Nat.lt_or_ge i (n + 1) with hlt | hge
    · exact le_max_of_le_left (hle i (Nat.lt_succ_iff.1 hlt) p)
    · obtain rfl : i = n + 1 := le_antisymm hi hge
      exact le_max_of_le_right (hN p)
  · rcases le_total M N with hMN | hNM
    · exact ⟨n + 1, le_rfl, q, by rw [hq, max_eq_right hMN]⟩
    · exact ⟨i0, Nat.le_succ_of_le hi0, p0, by rw [hp0, max_eq_left hNM]⟩
  · simp only [step]
    rw [hmax, h1, h2, exp_coe_sub, sum_exp_coe, ← EReal.coe_mul, ← EReal.coe_add, key]
    exact congrArg _ (Finset.sum_range_succ _ (n + 1)).symm

/-! ## The tiles of a real column -/

/-- Tile i of the real column α (rows i·1024 + p); zero past the last tile. -/
def tiles (α : Fin 65536 → ℝ) (i : ℕ) (p : Fin 1024) : ℝ :=
  if h : i < 64 then α (rowOf ⟨i, h⟩ p) else 0

theorem tiles_of_lt (α : Fin 65536 → ℝ) (i : ℕ) (h : i < 64) (p : Fin 1024) :
    tiles α i p = α (rowOf ⟨i, h⟩ p) := dif_pos h

theorem good_online (α : Fin 65536 → ℝ) :
    ∀ (n : ℕ) (h : n < 64), Good (tiles α) n (online (fun r => (α r : EReal)) n h)
  | 0, h => by
    have e : (fun p => ((α (rowOf ⟨0, h⟩ p) : ℝ) : EReal)) = fun p => (tiles α 0 p : EReal) :=
      funext fun p => by rw [tiles_of_lt α 0 h]
    show Good (tiles α) 0 (step (⊥, 0) (fun p => ((α (rowOf ⟨0, h⟩ p) : ℝ) : EReal)))
    rw [e]; exact good_base _
  | n + 1, h => by
    have e : (fun p => ((α (rowOf ⟨n + 1, h⟩ p) : ℝ) : EReal)) = fun p => (tiles α (n + 1) p : EReal) :=
      funext fun p => by rw [tiles_of_lt α (n + 1) h]
    show Good (tiles α) (n + 1) (step (online (fun r => (α r : EReal)) n (Nat.lt_of_succ_lt h))
      (fun p => ((α (rowOf ⟨n + 1, h⟩ p) : ℝ) : EReal)))
    rw [e]; exact good_step _ n _ (good_online α n (Nat.lt_of_succ_lt h))

/-- Rows as (tile, position in tile): (i, p) ↦ i·1024 + p. -/
def rowEquiv : Fin 64 × Fin 1024 ≃ Fin 65536 where
  toFun ip := rowOf ip.1 ip.2
  invFun r := (⟨r.val / 1024, by have := r.isLt; omega⟩, ⟨r.val % 1024, Nat.mod_lt _ (by norm_num)⟩)
  left_inv := by
    rintro ⟨i, p⟩
    have := i.isLt
    have := p.isLt
    ext <;> simp only [rowOf] <;> omega
  right_inv := by
    intro r
    ext
    simp only [rowOf]
    omega

/-! ## The streaming value is the column softmax -/

theorem streamed_eq_colSoftmax (a : Fin 65536 → EReal) (ha : ∀ r, ∃ v : ℝ, a r = (v : EReal))
    (r : Fin 65536) : streamed a r = colSoftmax a r := by
  choose α hα using ha
  obtain rfl : a = fun r => (α r : EReal) := funext hα
  obtain ⟨M, h1, hle, ⟨i0, hi0, p0, hp0⟩, h2⟩ := good_online α 63 (by decide)
  -- M bounds every row and is attained: it is the column maximum
  have hleAll : ∀ r, α r ≤ M := by
    intro r
    obtain ⟨⟨i, p⟩, rfl⟩ := rowEquiv.surjective r
    have := hle i.val (Nat.lt_succ_iff.1 i.isLt) p
    rwa [tiles_of_lt α i.val i.isLt] at this
  have hexAll : ∃ r, α r = M :=
    ⟨rowOf ⟨i0, Nat.lt_succ_of_le hi0⟩ p0, by rw [← tiles_of_lt α i0 _ p0]; exact hp0⟩
  have hcolMax : colMax (fun r => (α r : EReal)) = (M : EReal) :=
    fold_max_eq _ α M (fun r _ => hleAll r)
      (by obtain ⟨r, hr⟩ := hexAll; exact ⟨r, Finset.mem_univ r, hr⟩)
  -- the running sum is the column sum, re-indexing rows by (tile, position)
  have hsum : (∑ i ∈ Finset.range (63 + 1), ∑ p, Real.exp (tiles α i p - M))
      = ∑ r : Fin 65536, Real.exp (α r - M) := by
    show (∑ i ∈ Finset.range 64, ∑ p, Real.exp (tiles α i p - M)) = _
    rw [Finset.sum_range]
    calc (∑ i : Fin 64, ∑ p, Real.exp (tiles α i.val p - M))
        = ∑ i : Fin 64, ∑ p, Real.exp (α (rowEquiv (i, p)) - M) := by
          refine Finset.sum_congr rfl (fun i _ => Finset.sum_congr rfl (fun p _ => ?_))
          rw [tiles_of_lt α i.val i.isLt]; rfl
      _ = ∑ ip : Fin 64 × Fin 1024, Real.exp (α (rowEquiv ip) - M) :=
          (Fintype.sum_prod_type (fun ip : Fin 64 × Fin 1024 => Real.exp (α (rowEquiv ip) - M))).symm
      _ = ∑ r : Fin 65536, Real.exp (α r - M) := rowEquiv.sum_comp (fun r => Real.exp (α r - M))
  have hcolSum : colSum (fun r => (α r : EReal))
      = ((∑ r : Fin 65536, Real.exp (α r - M) : ℝ) : EReal) := by
    unfold colSum; rw [hcolMax]; exact sum_exp_coe Finset.univ α M
  -- the sum is positive: the term at the maximum is exp 0
  have hSpos : 0 < ∑ r : Fin 65536, Real.exp (α r - M) := by
    obtain ⟨r0, _⟩ := hexAll
    calc (0 : ℝ) < Real.exp (α r0 - M) := Real.exp_pos _
      _ ≤ ∑ r : Fin 65536, Real.exp (α r - M) :=
          Finset.single_le_sum (f := fun r => Real.exp (α r - M)) (fun r _ => (Real.exp_pos _).le)
            (Finset.mem_univ r0)
  simp only [streamed, colSoftmax]
  rw [hcolMax, hcolSum, h1, h2, hsum, Ideal.log_coe, if_neg (not_le.2 hSpos), ← EReal.coe_add,
    exp_coe_sub, exp_coe_sub, Ideal.div_coe hSpos.ne', ← EReal.coe_mul]
  refine congrArg Real.toEReal ?_
  rw [sub_add_eq_sub_sub, Real.exp_sub, Real.exp_log hSpos, div_eq_mul_one_div]

end Cert.ColSoftmax

end
-- ==== Proof.Finite.lean ====
/-
  Finiteness. (1) The precondition says that every entry of the three argument arrays is smaller than +∞ in absolute
  value, which over the extended reals means that it is a real number. (2) The negated weighted distance of real arrays
  is a real number: sums and products of reals are real, the clamp at zero makes the radicand a non-negative real, and the
  square root of a non-negative real is real.
-/
import proofs.«179421_j68307159876092_2_alg».proof.Defs
import proofs.«179421_j68307159876092_2_alg».proof.Proof.Spec
import Idealize.ShloMosaic.Lib.ReduceAll

noncomputable section

namespace Cert.KernelIdeal.Finite

open Idealize.ShloMosaic Idealize.ShloMosaic.ValueIdx Idealize.SL.Sem

/-- The pattern 0x40000000 (sign 0, exponent 128, fraction 0) denotes the real number 2. -/
theorem ofBits_two : Ideal.ofBits .f32 0x40000000#32 = ((2 : ℝ) : EReal) := by
  simp [Ideal.ofBits, Ideal.ieee, -EReal.coe_mul]; norm_num

/-- A finite sum of reals, summed in the extended reals, is the real sum. -/
theorem sum_coe {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The maximum of two reals, taken in the extended reals, is the real maximum. -/
theorem max_coe (a b : ℝ) : max (a : EReal) (b : EReal) = ((max a b : ℝ) : EReal) :=
  (EReal.coe_strictMono.monotone.map_max).symm

/-- The negated weighted distance of real arrays is real. -/
theorem nd_real (x : Cert.ColSoftmax.SX.Idx → EReal) (s : Cert.ColSoftmax.SS.Idx → EReal) (w : Cert.ColSoftmax.SW.Idx → EReal)
    (hx : ∀ i, ∃ v : ℝ, x i = (v : EReal)) (hs : ∀ i, ∃ v : ℝ, s i = (v : EReal)) (hw : ∀ i, ∃ v : ℝ, w i = (v : EReal))
    (r : Fin 65536) (c : Fin 1024) : ∃ v : ℝ, Cert.ColSoftmax.nd x s w r c = (v : EReal) := by
  choose xv hxv using hx
  choose sv hsv using hs
  choose wv hwv using hw
  refine ⟨-(Real.sqrt (max ((∑ k : Fin 256, xv (ix2 r k) * xv (ix2 r k))
        - 2 * (∑ k : Fin 256, xv (ix2 r k) * sv (ix2 c k))
        + (∑ k : Fin 256, sv (ix2 c k) * sv (ix2 c k))) 0) * wv (ix2 (0 : Fin 1) c)), ?_⟩
  unfold Cert.ColSoftmax.nd
  simp only [hxv, hsv, hwv, ofBits_two, ← EReal.coe_mul, sum_coe, ← EReal.coe_sub, ← EReal.coe_add]
  rw [show (0 : EReal) = ((0 : ℝ) : EReal) from rfl, max_coe, Ideal.sqrt_coe,
    if_neg (not_lt.mpr (le_max_right _ _)), ← EReal.coe_mul, ← EReal.coe_neg]

/-! ## From the precondition to real entries -/

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max(x, −x) compares below +∞ is a real number: at −∞ and at +∞ the absolute
    value is +∞ itself. -/
theorem real_of_abs_lt (x : EReal)
    (h : Ideal.cmp .olt (max x (-x)) (Ideal.ofBits .f32 0x7F800000#32) = 1#1) : ∃ v : ℝ, x = (v : EReal) := by
  rw [ofBits_inf] at h
  induction x using EReal.rec with
  | bot => simp [Ideal.cmp] at h
  | coe v => exact ⟨v, rfl⟩
  | top => simp [Ideal.cmp] at h

/-- The rank-0 result shape has exactly one index. -/
instance : Subsingleton Cert.Pre_finite_inputs.S_.Idx := ⟨fun a b => funext fun d => d.elim0⟩

/-- One conjunct of the precondition: if the conjunction over all entries of "|x| < +∞" is true then every entry of x
    is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1)
    (i : s.Idx) : ∃ v : ℝ, x i = (v : EReal) :=
  real_of_abs_lt (x i) (Host.reduce_andi_all _ _ hr hu ix0 e i)

/-- Under the precondition every entry of each of the three argument arrays is a real number. -/
theorem args_real [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ v : ℝ, m ((c.tc : Thread Cert.KernelIdeal.nD Cert.KernelIdeal.τ).loc Cert.KernelIdeal.main_arg0) i = (v : EReal))
  ∧ (∀ i, ∃ v : ℝ, m ((c.tc : Thread Cert.KernelIdeal.nD Cert.KernelIdeal.τ).loc Cert.KernelIdeal.main_arg1) i = (v : EReal))
  ∧ (∀ i, ∃ v : ℝ, m ((c.tc : Thread Cert.KernelIdeal.nD Cert.KernelIdeal.τ).loc Cert.KernelIdeal.main_arg2) i = (v : EReal)) := by
  have h0 := congrFun (h c) ix0
  dsimp only [Cert.Pre_finite_inputs.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

end Cert.KernelIdeal.Finite

end
-- ==== Proof.KernelValue.lean ====
/-
  The tiled program's result array is the column softmax of the negated weighted distances.

  The statistics pass leaves, for every codebook column, the final streaming pair (M, S) of the column's negated distances;
  the host adds M + log S; the second pass writes exp(nd r c − (M + log S)) at every (r, c). With all inputs finite every
  negated distance is a real number, and then the streamed value is the softmax exp(nd r c − max) / Σ exp(nd · c − max).
-/
import proofs.«179421_j68307159876092_2_alg».proof.Proof.FrameRun
import proofs.«179421_j68307159876092_2_alg».proof.Proof.Stats
import proofs.«179421_j68307159876092_2_alg».proof.Proof.Final
import proofs.«179421_j68307159876092_2_alg».proof.Proof.HostVals
import proofs.«179421_j68307159876092_2_alg».proof.Proof.Algebra
import proofs.«179421_j68307159876092_2_alg».proof.Proof.Finite

noncomputable section

namespace Cert.KernelIdeal.KVal

open Idealize.ShloMosaic Idealize.ShloMosaic.TcCoe Idealize.SL.Sem Idealize.ShloMosaic.ValueIdx
open Cert.KernelIdeal Cert.KernelIdeal.Gen Cert.ColSoftmax

variable (m : (ℓ : Loc nD τ sig) → Buf (Elt Ideal) ℓ) (ρ : Dev nD → PrngReg) (c : Dev nD)

/-- The three argument arrays of device `c` as plain functions. -/
abbrev aX : SX.Idx → EReal := m ((c.tc : Thread nD τ).loc main_arg0)
abbrev aS : SS.Idx → EReal := m ((c.tc : Thread nD τ).loc main_arg1)
abbrev aW : SW.Idx → EReal := m ((c.tc : Thread nD τ).loc main_arg2)

/-- A column of negated distances, from the argument arrays. -/
abbrev col (cc : Fin 1024) : Fin 65536 → EReal := fun r => nd (aX m c) (aS m c) (aW m c) r cc

/-- What the statistics pass reads is the argument arrays: the codebook rounded for the matrix unit is itself at the exact
    values, and the row of squared norms holds 0 + Σ_k s_ck². -/
theorem col_V1 (cc : Fin 1024) : Stats.colOf (V1 m ρ) c cc = col m c cc := by
  funext r
  show ndK (V1 m ρ c main_arg0) (V1 m ρ c main_v3) (V1 m ρ c main_arg2) (V1 m ρ c main_v2) r cc = _
  rw [HostVals.V1_arg0, HostVals.V1_arg2, HostVals.V1_v3]
  exact ndK_eq_nd _ _ _ _ (HostVals.V1_v2_at_of m ρ c (aS m c) rfl) r cc

/-- The second pass reads the same arrays. -/
theorem ndK_V3 (r : Fin 65536) (cc : Fin 1024) :
    ndK (V3 m ρ c main_arg0) (V3 m ρ c main_v3) (V3 m ρ c main_arg2) (V3 m ρ c main_v2) r cc = col m c cc r := by
  rw [HostVals.V3_arg0, HostVals.V3_arg2, HostVals.V3_v3, HostVals.V3_v2]
  exact congrFun (col_V1 m ρ c cc) r

/-- The shift the second pass subtracts in column `cc`: M + log S of the final streaming pair. -/
theorem shift_eq (cc : Fin 1024) :
    V3 m ρ c main_v6 (ix2 (0 : Fin 1) cc)
      = (online (col m c cc) 63 (by decide)).1 + Ideal.log (online (col m c cc) 63 (by decide)).2 := by
  rw [HostVals.V3_v6_at, Stats.arr4_at, Stats.arr5_at, col_V1]

/-- THE RESULT ARRAY of the tiled program, under the precondition. -/
theorem kernel_val [Cert.Pre_finite_inputs.Facts] (hpre : Cert.Pre_KernelIdeal m) :
    W4 m ρ c (Proc.devRef .tc main_v7) = G (aX m c) (aS m c) (aW m c) := by
  rw [Cert.KernelIdeal.GenP.W4_main_v7]
  funext i
  obtain ⟨r, cc, rfl⟩ : ∃ (r : Fin 65536) (cc : Fin 1024), i = ix2 r cc := ⟨i 0, i 1, eq_ix2 i⟩
  rw [Final.final_arr, ndK_V3, shift_eq, G_ix2]
  obtain ⟨hx, hs, hw⟩ := Cert.KernelIdeal.Finite.args_real m hpre c
  exact streamed_eq_colSoftmax (col m c cc) (fun r' => Cert.KernelIdeal.Finite.nd_real _ _ _ hx hs hw r' cc) r

end Cert.KernelIdeal.KVal

end
-- ==== Proof.lean ====
/-
  The certificate of a streaming column softmax against its direct form.

  Both programs take 65536 points x_r, 1024 codebook vectors s_c and weights w_c and return, for every (r, c), the softmax
  DOWN COLUMN c of nd r c = −(√max(‖x_r‖² − 2⟨x_r, s_c⟩ + ‖s_c‖², 0) · w_c). The reference forms the column maximum and the
  column sum of exponentials directly and divides. The tiled program makes two passes over the points in tiles of 1024 rows:
  the first keeps, per column, a running maximum M and a running sum S rescaled by exp(old M − new M) whenever M grows;
  the host forms M + log S; the second pass writes exp(nd r c − (M + log S)).

  At the exact values a change of float format is the identity, a matrix product into a zero accumulator is the inner
  product, and sums may be regrouped; what joins the two sides is the streaming-softmax identity, which holds because under
  the precondition (all inputs finite) every nd r c is a real number, so the running sum is a positive real and
  exp(a − (M + log S)) = exp(a − M) / S. The kernel's own frames are the generated ones; the reference's frame is its run
  with the result dropped; the idealization rewrote nothing, so `preserves` is trivial.
-/
import proofs.«179421_j68307159876092_2_alg».proof.Defs
import proofs.«179421_j68307159876092_2_alg».proof.Proof.Gen.Kernel
import proofs.«179421_j68307159876092_2_alg».proof.Proof.Gen.Kernel.Skeleton
import proofs.«179421_j68307159876092_2_alg».proof.Proof.Gen.Kernel.Launch
import proofs.«179421_j68307159876092_2_alg».proof.Proof.Gen.Kernel.Points
import proofs.«179421_j68307159876092_2_alg».proof.Proof.Gen.Kernel.Frame
import proofs.«179421_j68307159876092_2_alg».proof.Proof.Gen.KernelIdeal
import proofs.«179421_j68307159876092_2_alg».proof.Proof.Gen.KernelIdeal.Skeleton
import proofs.«179421_j68307159876092_2_alg».proof.Proof.Gen.KernelIdeal.Launch
import proofs.«179421_j68307159876092_2_alg».proof.Proof.Gen.KernelIdeal.Points
import proofs.«179421_j68307159876092_2_alg».proof.Proof.Gen.KernelIdeal.Frame
import proofs.«179421_j68307159876092_2_alg».proof.Proof.Gen.ReferenceIdeal
import proofs.«179421_j68307159876092_2_alg».proof.Proof.Gen.Pre_finite_inputs
import proofs.«179421_j68307159876092_2_alg».proof.Proof.Gen.ReferenceIdeal.Run
import proofs.«179421_j68307159876092_2_alg».proof.Proof.Gen.ReferenceIdeal.Read
import proofs.«179421_j68307159876092_2_alg».proof.Proof.RefValue
import proofs.«179421_j68307159876092_2_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the column softmax `G` of the same argument arrays. -/
theorem algebraic : Cert.algebraic_KernelIdeal_ReferenceIdeal := by
  intro m ρ m' ρ' hpre hagree
  refine ⟨fun c => Cert.ColSoftmax.G (Cert.KernelIdeal.KVal.aX m c) (Cert.KernelIdeal.KVal.aS m c) (Cert.KernelIdeal.KVal.aW m c), ?_, ?_⟩
  · exact (θ_run Cert.KernelIdeal.defs _ _).mono
      (fun _ h c => ⟨(h c).1.trans (Cert.KernelIdeal.KVal.kernel_val m ρ c hpre), (h c).2⟩)
      (Cert.KernelIdeal.GenP.frame_val (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2]
    exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
